-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x16 : Shape := ⟨2, ![128, 16]⟩
abbrev S16 : Shape := ⟨1, ![16]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  main_v18

def fn {F : FTy → Type} [FloatOps F] (main_arg0 : FVec F S10000x128 .f32) (main_arg1 : FVec F S10000x10000 .f32) (main_arg2 : FVec F S128x16 .f32) (main_arg3 : FVec F S16 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x16 .f32 := Host.absf main_arg2
  let main_cst_2 : FVec F S_ .f32 := constant S_ .f32 0x7F800000#32
  let main_v10 : FVec F S128x16 .f32 := broadcastInDim S128x16 ![] bcast_S_S128x16 main_cst_2
  let main_v11 : IVec S128x16 1 := cmpf .olt main_v9 main_v10
  let main_c_3 : IVec S_ 1 := constantI S_ 1 1#1
  let main_v12 : IVec S_ 1 := (fun x v => Host.reduce IntOp.andi x v reducesTo_S128x16_S_d0_1 h_S_) main_v11 main_c_3
  let main_v13 : IVec S_ 1 := andi main_v8 main_v12
  let main_v14 : FVec F S16 .f32 := Host.absf main_arg3
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_v13 main_v16
-- ==== Kernel.lean ====
abbrev S10000x128 : Shape := ⟨2, ![10000, 128]⟩
abbrev S10000x10000 : Shape := ⟨2, ![10000, 10000]⟩
abbrev S128x16 : Shape := ⟨2, ![128, 16]⟩
abbrev S16 : Shape := ⟨1, ![16]⟩
abbrev S10000x16 : Shape := ⟨2, ![10000, 16]⟩
abbrev S400x10000 : Shape := ⟨2, ![400, 10000]⟩
abbrev S400x16 : Shape := ⟨2, ![400, 16]⟩
abbrev S1x16 : Shape := ⟨2, ![1, 16]⟩
abbrev S400 : Shape := ⟨1, ![400]⟩
abbrev S400x1 : Shape := ⟨2, ![400, 1]⟩

abbrev nBuf : Space → Nat
  | .hbm => 5
  | .vmem => 7
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x16, .f32⟩
  | .hbm, ⟨3, _⟩ => ⟨S16, .f32⟩
  | .hbm, ⟨4, _⟩ => ⟨S10000x16, .f32⟩
  | .local _ .vmem, ⟨0, _⟩ => ⟨S10000x128, .f32⟩
  | .local _ .vmem, ⟨1, _⟩ => ⟨S128x16, .f32⟩
  | .local _ .vmem, ⟨2, _⟩ => ⟨S16, .f32⟩
  | .local _ .vmem, ⟨3, _⟩ => ⟨S400x10000, .f32⟩
  | .local _ .vmem, ⟨4, _⟩ => ⟨S400x10000, .f32⟩
  | .local _ .vmem, ⟨5, _⟩ => ⟨S10000x16, .f32⟩
  | .local _ .vmem, ⟨6, _⟩ => ⟨S10000x16, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5

abbrev nD : Nat := 1
abbrev τ : Topo := Topo.v7x

variable {F : FTy → Type} [FloatOps F]

abbrev grid0 : Pipeline.Grid := ⟨1, ![25], ![false]⟩

def k0_off1 (i : grid0.Coords) : Fin 2 → Nat :=
  let arg0 : BitVec 32 := BitVec.ofNat 32 (i 0).val
  let c400_i32 : BitVec 32 := 400#32
  let v22 : BitVec 32 := Scalar.muli arg0 c400_i32
  let v23 : Index := Scalar.indexCast v22
  let c0_8 : Index := 0#32
  ![v23.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S400x10000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S10000x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

class Facts₀ : Prop where
  inb_S10000x128_S10000x128_0_0 : ∀ a, (![0, 0] : Fin 2 → Nat) a + S10000x128.size a ≤ S10000x128.size a
  h_S10000x128 : 0 < S10000x128.numel
  inb_S128x16_S128x16_0_0 : ∀ a, (![0, 0] : Fin 2 → Nat) a + S128x16.size a ≤ S128x16.size a
  h_S128x16 : 0 < S128x16.numel
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  inb_S400x10000_S400x10000_0_0 : ∀ a, (![0, 0] : Fin 2 → Nat) a + S400x10000.size a ≤ S400x10000.size a
  h_S400x10000 : 0 < S400x10000.numel
  inb_S16_S16_0 : ∀ a, (![0] : Fin 1 → Nat) a + S16.size a ≤ S16.size a
  h_S16 : 0 < S16.numel
  shapeCasts_S16_S1x16 : S16.ShapeCasts S1x16
  broadcasts_S1x16_S400x16 : S1x16.Broadcasts S400x16
  reduces_S400x16_S400 : S400x16.Reduces [1] S400
  shapeCasts_S400_S400x1 : S400.ShapeCasts S400x1
  broadcasts_S400x1_S400x16 : S400x1.Broadcasts S400x16
  h_S400x16 : 0 < S400x16.numel
  dot_S10000x128_S128x16_S10000x16_1_0_0_1_n_n_wf : DotDims.WF S10000x128 S128x16 S10000x16 [1] [0] [0] [1] [] []
  dot_S400x10000_S10000x16_S400x16_1_0_0_1_n_n_wf : DotDims.WF S400x10000 S10000x16 S400x16 [1] [0] [0] [1] [] []
  hrank0 : 0 < grid0.rank
  k0_off1_inb : ∀ i : grid0.Coords, ∀ a, (k0_off1 i) a + S400x16.size a ≤ S10000x16.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x16.size a ≤ S128x16.size a
  hwx0_1 : ∀ i : grid0.Coords, EltTy.bits .f32 = 32 ∨ (Rect.block (s := S128x16) S128x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16.size a ≤ S16.size a
  hwx0_2 : ∀ i : grid0.Coords, EltTy.bits .f32 = 32 ∨ (Rect.block (s := S16) S16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S400x10000.size a ≤ S10000x10000.size a
  hwx0_3 : ∀ i : grid0.Coords, EltTy.bits .f32 = 32 ∨ (Rect.block (s := S10000x10000) S400x10000.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S10000x16.size a ≤ S10000x16.size a
  hwx0_4 : ∀ i : grid0.Coords, EltTy.bits .f32 = 32 ∨ (Rect.block (s := S10000x16) S10000x16.size (cc0_transform_4 i) (hinb0_4 i)).WholeWords (EltTy.packing .f32)

variable [Facts₀]

def dot_S10000x128_S128x16_S10000x16_1_0_0_1_n_n : DotDims S10000x128 S128x16 S10000x16 where
  lhsContracting := [1]
  rhsContracting := [0]
  lhsNonContracting := [0]
  rhsNonContracting := [1]
  lhsBatch := []
  rhsBatch := []
  wf := dot_S10000x128_S128x16_S10000x16_1_0_0_1_n_n_wf
def dot_S400x10000_S10000x16_S400x16_1_0_0_1_n_n : DotDims S400x10000 S10000x16 S400x16 where
  lhsContracting := [1]
  rhsContracting := [0]
  lhsNonContracting := [0]
  rhsNonContracting := [1]
  lhsBatch := []
  rhsBatch := []
  wf := dot_S400x10000_S10000x16_S400x16_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S400x10000.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S10000x16.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x16 : Shape := ⟨2, ![128, 16]⟩
abbrev S16 : Shape := ⟨1, ![16]⟩
abbrev S10000x16 : Shape := ⟨2, ![10000, 16]⟩
abbrev S1x16 : Shape := ⟨2, ![1, 16]⟩
abbrev S_ : Shape := ⟨0, ![]⟩
abbrev S10000 : Shape := ⟨1, ![10000]⟩
abbrev S10000x1 : Shape := ⟨2, ![10000, 1]⟩

abbrev nBuf : Space → Nat
  | .hbm => 27
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x16, .f32⟩
  | .hbm, ⟨3, _⟩ => ⟨S16, .f32⟩
  | .hbm, ⟨4, _⟩ => ⟨S10000x16, .f32⟩
  | .hbm, ⟨5, _⟩ => ⟨S10000x16, .f32⟩
  | .hbm, ⟨6, _⟩ => ⟨S1x16, .f32⟩
  | .hbm, ⟨7, _⟩ => ⟨S10000x16, .f32⟩
  | .hbm, ⟨8, _⟩ => ⟨S10000x16, .f32⟩
  | .hbm, ⟨9, _⟩ => ⟨S_, .f32⟩
  | .hbm, ⟨10, _⟩ => ⟨S10000x16, .f32⟩
  | .hbm, ⟨11, _⟩ => ⟨S10000x16, .f32⟩
  | .hbm, ⟨12, _⟩ => ⟨S_, .f32⟩
  | .hbm, ⟨13, _⟩ => ⟨S10000, .f32⟩
  | .hbm, ⟨14, _⟩ => ⟨S_, .f32⟩
  | .hbm, ⟨15, _⟩ => ⟨S10000, .f32⟩
  | .hbm, ⟨16, _⟩ => ⟨S10000, .f32⟩
  | .hbm, ⟨17, _⟩ => ⟨S10000x1, .f32⟩
  | .hbm, ⟨18, _⟩ => ⟨S10000x16, .f32⟩
  | .hbm, ⟨19, _⟩ => ⟨S10000x16, .f32⟩
  | .hbm, ⟨20, _⟩ => ⟨S10000x16, .f32⟩
  | .hbm, ⟨21, _⟩ => ⟨S_, .f32⟩
  | .hbm, ⟨22, _⟩ => ⟨S10000, .f32⟩
  | .hbm, ⟨23, _⟩ => ⟨S10000x1, .f32⟩
  | .hbm, ⟨24, _⟩ => ⟨S10000x1, .f32⟩
  | .hbm, ⟨25, _⟩ => ⟨S10000x16, .f32⟩
  | .hbm, ⟨26, _⟩ => ⟨S10000x16, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_cst : Ref sig .tc := ⟨.hbm, 9, rfl⟩
abbrev main_call0_v0 : Ref sig .tc := ⟨.hbm, 10, rfl⟩
abbrev main_v5 : Ref sig .tc := ⟨.hbm, 11, rfl⟩
abbrev main_call1_cst : Ref sig .tc := ⟨.hbm, 12, rfl⟩
abbrev main_call1_v0 : Ref sig .tc := ⟨.hbm, 13, rfl⟩
abbrev main_call1_cst_0 : Ref sig .tc := ⟨.hbm, 14, rfl⟩
abbrev main_call1_v1 : Ref sig .tc := ⟨.hbm, 15, rfl⟩
abbrev main_call1_v2 : Ref sig .tc := ⟨.hbm, 16, rfl⟩
abbrev main_call1_v3 : Ref sig .tc := ⟨.hbm, 17, rfl⟩
abbrev main_call1_v4 : Ref sig .tc := ⟨.hbm, 18, rfl⟩
abbrev main_call1_v5 : Ref sig .tc := ⟨.hbm, 19, rfl⟩
abbrev main_call1_v6 : Ref sig .tc := ⟨.hbm, 20, rfl⟩
abbrev main_call1_cst_1 : Ref sig .tc := ⟨.hbm, 21, rfl⟩
abbrev main_call1_v7 : Ref sig .tc := ⟨.hbm, 22, rfl⟩
abbrev main_call1_v8 : Ref sig .tc := ⟨.hbm, 23, rfl⟩
abbrev main_call1_v9 : Ref sig .tc := ⟨.hbm, 24, rfl⟩
abbrev main_call1_v10 : Ref sig .tc := ⟨.hbm, 25, rfl⟩
abbrev main_v6 : Ref sig .tc := ⟨.hbm, 26, rfl⟩

abbrev nD : Nat := 1
abbrev τ : Topo := Topo.v7x

variable {F : FTy → Type} [FloatOps F]

class Facts₀ : Prop where
  bcast_S16_S1x16_1 : S16.BroadcastsInDim S1x16 (![1] : Fin 1 → Fin S1x16.rank)
  bcast_S1x16_S10000x16_0_1 : S1x16.BroadcastsInDim S10000x16 (![0, 1] : Fin 2 → Fin S10000x16.rank)
  bcast_S_S10000x16 : S_.BroadcastsInDim S10000x16 (![] : Fin 0 → Fin S10000x16.rank)
  reducesTo_S10000x16_S10000_d1 : S10000x16.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x16_0_1 : S10000x1.BroadcastsInDim S10000x16 (![0, 1] : Fin 2 → Fin S10000x16.rank)
  dot_S10000x128_S128x16_S10000x16_1_0_0_1_n_n_wf : DotDims.WF S10000x128 S128x16 S10000x16 [1] [0] [0] [1] [] []
  dot_S10000x10000_S10000x16_S10000x16_1_0_0_1_n_n_wf : DotDims.WF S10000x10000 S10000x16 S10000x16 [1] [0] [0] [1] [] []

variable [Facts₀]

def dot_S10000x128_S128x16_S10000x16_1_0_0_1_n_n : DotDims S10000x128 S128x16 S10000x16 where
  lhsContracting := [1]
  rhsContracting := [0]
  lhsNonContracting := [0]
  rhsNonContracting := [1]
  lhsBatch := []
  rhsBatch := []
  wf := dot_S10000x128_S128x16_S10000x16_1_0_0_1_n_n_wf
def dot_S10000x10000_S10000x16_S10000x16_1_0_0_1_n_n : DotDims S10000x10000 S10000x16 S10000x16 where
  lhsContracting := [1]
  rhsContracting := [0]
  lhsNonContracting := [0]
  rhsNonContracting := [1]
  lhsBatch := []
  rhsBatch := []
  wf := dot_S10000x10000_S10000x16_S10000x16_1_0_0_1_n_n_wf

class Facts : Prop extends Facts₀ where

variable [Facts]
-- ==== Proof.KBodyKit.lean ====
import proofs.«181991_g8967891714351_rerun558fix_450_27_alg».proof.Proof.Gen.Kernel.Launch
import proofs.«181991_g8967891714351_rerun558fix_450_27_alg».proof.Proof.Gen.Kernel.Skeleton
import proofs.«181991_g8967891714351_rerun558fix_450_27_alg».proof.Proof.Gen.Kernel.Points
import proofs.«181991_g8967891714351_rerun558fix_450_27_alg».proof.Proof.Gen.Kernel.Frame
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

/-! The kernel body's surroundings: which grid point is the first, which rows of the output's buffer a point stores,
    and the staging and scratch memrefs the body is called with. -/

theorem hz2 : (![0, 0] : Fin 2 → ℕ) = fun _ => 0 := funext fun a => by fin_cases a <;> rfl
theorem hz1 : (![0] : Fin 1 → ℕ) = fun _ => 0 := funext fun a => by fin_cases a <;> rfl

/-- The body's one branch condition, computed from the grid coordinate: the point is the first one. -/
abbrev isFirst (i : grid0.Coords) : Prop := (Scalar.cmpi .ne (Scalar.extui (Scalar.cmpi .eq (BitVec.ofNat 32 (i 0).val) 0#32)) 0#32) = 1#1

/-- It holds at point 0 and at no other of the 25 points: decided over the grid. -/
theorem isFirst_iff : ∀ t : Fin cfg0.N, isFirst (grid0.coords t) ↔ t.val = 0 :=
  (by decide +kernel : ∀ t : Fin grid0.N, isFirst (grid0.coords t) ↔ t.val = 0)

/-- The slab of the output's buffer a point stores: 400 rows starting at the row the point's coordinate chooses, all 16 columns. -/
abbrev slab (i : grid0.Coords) : Rect S10000x16 := Rect.unit (s := S10000x16) (k0_off1 i) S400x16.size (k0_off1_inb i)

/-- The slab of point `t` starts at row `400 t`, column 0: decided over the grid. -/
theorem slab_off : ∀ t : Fin cfg0.N, k0_off1 (grid0.coords t) = ![400 * t.val, 0] :=
  (by decide +kernel : ∀ t : Fin grid0.N, k0_off1 (grid0.coords t) = ![400 * t.val, 0])

/-- Each window's current staging memref at point `t`, as the pipeline passes it to the body, and its wholeness. -/
abbrev ms0_0 (t : Fin cfg0.N) : Memref sig .tc .vmem S10000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x16 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S16 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S400x10000 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S10000x16 .f32 := win0_4.stage (cfg0.slots t 4)
abbrev hs0_4 (t : Fin cfg0.N) : (ms0_4 t).IsWhole := hstage0_4 ((cfg0.slots t 4).cast nbuf0_4)
/-- The scratch operand: a whole scoped buffer of the kernel's own, in which the product `x · W` is kept between points. -/
abbrev scM : Memref sig .tc .vmem S10000x16 .f32 := Memref.whole cc0_scratch0

/-- What the region hands the body besides the windows: the scratch owned at some contents, and the generator register. -/
theorem scratch_inv (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.Kernel.Hand

end
-- ==== Proof.KBodyFirst.lean ====
import proofs.«181991_g8967891714351_rerun558fix_450_27_alg».proof.Proof.KBodyKit
import proofs.«181991_g8967891714351_rerun558fix_450_27_alg».proof.Proof.Gen.Kernel.Launch
import proofs.«181991_g8967891714351_rerun558fix_450_27_alg».proof.Proof.Gen.Kernel.Skeleton
import proofs.«181991_g8967891714351_rerun558fix_450_27_alg».proof.Proof.Gen.Kernel.Points
import proofs.«181991_g8967891714351_rerun558fix_450_27_alg».proof.Proof.Gen.Kernel.Frame
import Idealize.ShloMosaic.Lib.Pipeline.FrameBody
import Idealize.ShloMosaic.Lib.Pipeline.Value
import Idealize.ShloMosaic.Lib.WritesUnit
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

-- the executor's proof term is large: checking it walks past the default budget
set_option maxHeartbeats 1000000 in
/-- The body at the FIRST grid point, on whole staging memrefs holding the inputs' blocks, the output's buffer at any
    contents `y` and the scratch at any contents: it computes `x · W` into the scratch, then the block of the result from
    the adjacency's rows, that product and the bias, and stores it over the point's slab of the output's buffer; the
    inputs' buffers are left as found. -/
theorem body_first (c : Dev nD) (i : grid0.Coords) (arg1 : Memref sig .tc .vmem S10000x128 .f32) (harg1 : arg1.IsWhole) (arg2 : Memref sig .tc .vmem S128x16 .f32) (harg2 : arg2.IsWhole) (arg3 : Memref sig .tc .vmem S16 .f32) (harg3 : arg3.IsWhole) (arg4 : Memref sig .tc .vmem S400x10000 .f32) (harg4 : arg4.IsWhole) (arg5 : Memref sig .tc .vmem S10000x16 .f32) (harg5 : arg5.IsWhole) (arg6 : Memref sig .tc .vmem S10000x16 .f32) (harg6 : arg6.IsWhole) (hc0 : isFirst i)
    (x0 : Vec F S10000x128 .f32) (x1 : Vec F S128x16 .f32) (x2 : Vec F S16 .f32) (x3 : Vec F S400x10000 .f32) (y : Vec F S10000x16 .f32) (s : Vec F S10000x16 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare y ∗ owns (c : Thread nD τ) arg6 fullShare s
            ∗ (iprop(owns (c : Thread nD τ) arg1 fullShare x0 ∗ owns (c : Thread nD τ) arg2 fullShare x1 ∗ owns (c : Thread nD τ) arg3 fullShare x2 ∗ owns (c : Thread nD τ) arg4 fullShare x3
                ∗ owns (c : Thread nD τ) arg5 fullShare (arg5.view.read (Elt F) (arg5.view.writes (Elt F) (harg5.unread y) [⟨slab i, k0_pay2 x3 (k0_pay1 x0 x1) x2⟩]))
                ∗ owns (c : Thread nD τ) arg6 fullShare (k0_pay1 x0 x1)) -∗ K ⟨⟩))
          ⊢ wp frame (wpE (defs₀ (F := F)) Variants.none c none) E (cc0__gcn_block_kernel i arg1 harg1 arg2 harg2 arg3 harg3 arg4 harg4 arg5 harg5 arg6 harg6) K := by
    intro E K
    simp only [cc0__gcn_block_kernel_eq_skeleton]; unfold cc0__gcn_block_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg1.eq_unread hf0; obtain rfl := harg2.eq_unread hf1; obtain rfl := harg3.eq_unread hf2; obtain rfl := harg4.eq_unread hf3
    obtain rfl := harg5.eq_unread hf4; obtain rfl := harg6.eq_unread hfs0
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; swap; · iexact H4
      ipureintro
      sl_unfold_run_names
      rw [View.readCov_unit_zero (S := S10000x16) arg6.view hz2]
      simp only [View.readAt_eq_ld, harg1.read_unread, harg2.read_unread, harg3.read_unread, harg4.read_unread,
        View.ld_unit_zero (S := S10000x128) hz2, View.ld_unit_zero (S := S128x16) hz2, View.ld_unit_zero (S := S400x10000) hz2, View.ld_unit_zero (S := S16) hz1]
    iexists _; isplitr; swap; · iexact HS0
    ipureintro
    sl_unfold_run_names
    simp only [View.readAt_eq_ld, harg1.read_unread, harg2.read_unread, View.ld_unit_zero (S := S10000x128) hz2, View.ld_unit_zero (S := S128x16) hz2]
    funext y
    exact View.read_writes_cons_unit_of_mem arg6.view (harg6.unread s) inb_S10000x16_S10000x16_0_0 (k0_pay1 x0 x1) [] y y hz2
      (fun a => (Nat.zero_add _).symm)

end Cert.Kernel.Hand

end
-- ==== Proof.KBodyLater.lean ====
import proofs.«181991_g8967891714351_rerun558fix_450_27_alg».proof.Proof.KBodyKit
import proofs.«181991_g8967891714351_rerun558fix_450_27_alg».proof.Proof.Gen.Kernel.Launch
import proofs.«181991_g8967891714351_rerun558fix_450_27_alg».proof.Proof.Gen.Kernel.Skeleton
import proofs.«181991_g8967891714351_rerun558fix_450_27_alg».proof.Proof.Gen.Kernel.Points
import proofs.«181991_g8967891714351_rerun558fix_450_27_alg».proof.Proof.Gen.Kernel.Frame
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

-- the executor's proof term is large: checking it walks past the default budget
set_option maxHeartbeats 1000000 in
/-- The body at a LATER grid point, the scratch holding some contents `s` (the product `x · W` once the first point has
    run): it computes the block of the result from the adjacency's rows, `s` and the bias, and stores it over the point's
    slab of the output's buffer; the inputs' buffers and the scratch are left as found. -/
theorem body_later (c : Dev nD) (i : grid0.Coords) (arg1 : Memref sig .tc .vmem S10000x128 .f32) (harg1 : arg1.IsWhole) (arg2 : Memref sig .tc .vmem S128x16 .f32) (harg2 : arg2.IsWhole) (arg3 : Memref sig .tc .vmem S16 .f32) (harg3 : arg3.IsWhole) (arg4 : Memref sig .tc .vmem S400x10000 .f32) (harg4 : arg4.IsWhole) (arg5 : Memref sig .tc .vmem S10000x16 .f32) (harg5 : arg5.IsWhole) (arg6 : Memref sig .tc .vmem S10000x16 .f32) (harg6 : arg6.IsWhole) (hc0 : ¬isFirst i)
    (x0 : Vec F S10000x128 .f32) (x1 : Vec F S128x16 .f32) (x2 : Vec F S16 .f32) (x3 : Vec F S400x10000 .f32) (y : Vec F S10000x16 .f32) (s : Vec F S10000x16 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare y ∗ owns (c : Thread nD τ) arg6 fullShare s
            ∗ (iprop(owns (c : Thread nD τ) arg1 fullShare x0 ∗ owns (c : Thread nD τ) arg2 fullShare x1 ∗ owns (c : Thread nD τ) arg3 fullShare x2 ∗ owns (c : Thread nD τ) arg4 fullShare x3
                ∗ owns (c : Thread nD τ) arg5 fullShare (arg5.view.read (Elt F) (arg5.view.writes (Elt F) (harg5.unread y) [⟨slab i, k0_pay2 x3 s x2⟩]))
                ∗ owns (c : Thread nD τ) arg6 fullShare s) -∗ K ⟨⟩))
          ⊢ wp frame (wpE (defs₀ (F := F)) Variants.none c none) E (cc0__gcn_block_kernel i arg1 harg1 arg2 harg2 arg3 harg3 arg4 harg4 arg5 harg5 arg6 harg6) K := by
    intro E K
    simp only [cc0__gcn_block_kernel_eq_skeleton]; unfold cc0__gcn_block_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg1.eq_unread hf0; obtain rfl := harg2.eq_unread hf1; obtain rfl := harg3.eq_unread hf2; obtain rfl := harg4.eq_unread hf3
    obtain rfl := harg5.eq_unread hf4; obtain rfl := harg6.eq_unread hfs0
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; swap; · iexact H4
      ipureintro
      simp only [View.readAt_eq_ld, harg3.read_unread, harg4.read_unread, harg6.read_unread,
        View.ld_unit_zero (S := S10000x16) hz2, View.ld_unit_zero (S := S400x10000) hz2, View.ld_unit_zero (S := S16) hz1]
    iexists _; isplitr; swap; · iexact HS0
    ipureintro
    exact harg6.read_unread _

end Cert.Kernel.Hand

end
-- ==== Proof.KFrameData.lean ====
import proofs.«181991_g8967891714351_rerun558fix_450_27_alg».proof.Proof.KBodyFirst
import proofs.«181991_g8967891714351_rerun558fix_450_27_alg».proof.Proof.KBodyLater
import proofs.«181991_g8967891714351_rerun558fix_450_27_alg».proof.Proof.Gen.Kernel.Launch
import proofs.«181991_g8967891714351_rerun558fix_450_27_alg».proof.Proof.Gen.Kernel.Skeleton
import proofs.«181991_g8967891714351_rerun558fix_450_27_alg».proof.Proof.Gen.Kernel.Points
import proofs.«181991_g8967891714351_rerun558fix_450_27_alg».proof.Proof.Gen.Kernel.Frame
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

/-! The proof data of the one pipeline, and the body obligation.

    The three whole-array inputs and the adjacency's row block are found at their blocks at every point.  The scratch
    holds the product `x · W` from the first point on: the region's invariant says so at every later point.  The output's
    buffer is written back once, after the last point, and each point overwrites only its own slab of 400 rows of it; so
    what a point leaves there is stated as a RELATION to what it found: the same contents with the slab overwritten by
    the block of the result the point computes. -/

variable (m : (ℓ : Loc nD τ sig) → Buf (Elt F) ℓ) (ρ : Dev nD → PrngReg)

/-- The first grid point. -/
abbrev t₀ : Fin cfg0.N := ⟨0, lt_of_lt_of_eq (by decide : 0 < 25) (show 25 = cfg0.N from N_0.symm)⟩

/-- The product `x · W`, as the first point computes it from the blocks of its two operands. -/
def sup (c : Dev nD) : Vec F S10000x16 .f32 := k0_pay1 (iblk m c 0 t₀) (iblk m c 1 t₀)

/-- What point `t` leaves in the output's buffer (`X`) given what it found there (`Y`): `Y` with the point's slab
    overwritten by the block of the result computed from the adjacency's row block, the kept product and the bias. -/
def slabRel (c : Dev nD) (t : Fin cfg0.N) (Y X : Vec F S10000x16 .f32) : Prop :=
  X = (ms0_4 t).view.read (Elt F) ((ms0_4 t).view.writes (Elt F) ((hs0_4 t).unread Y)
        [⟨slab (grid0.coords t), k0_pay2 (iblk m c 3 t) (sup m c) (iblk m c 2 t)⟩])

/-- The exact part of the proof data: the arrays as the region finds them; each input's buffer left at its block;
    the invariant — before the first point the scratch at anything, afterwards at `x · W`; nothing owed; full shares.
    (The output window's entry here is never read: its relation below replaces it.) -/
def dat (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
  Φ t := if t.val = 0 then Pipeline.ΦA spec0 c
    else iprop(owns (c : Thread nD τ) scM fullShare (sup m c) ∗ (∃ r, prngReg c r))
  q _ := fullShare
  owed _ := 0

/-- The output window's relation; the inputs keep the exact data's. -/
def ovr (c : Dev nD) : (w : Fin cfg0.W) → Option (Fin cfg0.N → (Y X : (cfg0.win w).block.Idx → Elt F (cfg0.win w).elt) → Prop)
  | ⟨0, _⟩ => none
  | ⟨1, _⟩ => none
  | ⟨2, _⟩ => none
  | ⟨3, _⟩ => none
  | ⟨4, _⟩ => some (slabRel m c)

/-- The proof data, relational in the output window. -/
def rd (c : Dev nD) : RDat τ (Elt F) Unit ℕ (UR sig nD τ) ℕ cfg0 c := (dat m c).toR.override (ovr m c)

theorem A_eq (c : Dev nD) (w : Fin cfg0.W) : (rd m c).A w = V m c (Pipeline.arrRef spec0 w) := by
  show (dat m c).A w = _
  dsimp only [dat]

theorem dat_A (c : Dev nD) (w : Fin cfg0.W) : (dat m c).A w = V m c (Pipeline.arrRef spec0 w) := by
  dsimp only [dat]

theorem after_0 (c : Dev nD) (t : Fin cfg0.N) : (dat m c).after 0 t = iblk m c 0 t := by dsimp only [dat]
theorem after_1 (c : Dev nD) (t : Fin cfg0.N) : (dat m c).after 1 t = iblk m c 1 t := by dsimp only [dat]
theorem after_2 (c : Dev nD) (t : Fin cfg0.N) : (dat m c).after 2 t = iblk m c 2 t := by dsimp only [dat]
theorem after_3 (c : Dev nD) (t : Fin cfg0.N) : (dat m c).after 3 t = iblk m c 3 t := by dsimp only [dat]

/-- Each input's current buffer holds its block at every point, fetched there or not. -/
theorem before_0 (c : Dev nD) (t : Fin cfg0.N) (d) : (dat m c).before 0 t d = iblk m c 0 t :=
  before0_0_of m (dat m c) (dat_A m c 0) (after_0 m c) t d
theorem before_1 (c : Dev nD) (t : Fin cfg0.N) (d) : (dat m c).before 1 t d = iblk m c 1 t :=
  before0_1_of m (dat m c) (dat_A m c 1) (after_1 m c) t d
theorem before_2 (c : Dev nD) (t : Fin cfg0.N) (d) : (dat m c).before 2 t d = iblk m c 2 t :=
  before0_2_of m (dat m c) (dat_A m c 2) (after_2 m c) t d
theorem before_3 (c : Dev nD) (t : Fin cfg0.N) (d) : (dat m c).before 3 t d = iblk m c 3 t :=
  before0_3_of m (dat m c) (dat_A m c 3) (after_3 m c) t d

/-- So whatever the body may find in an input's buffer is that input's block. -/
theorem finds_0 (c : Dev nD) (t : Fin cfg0.N) (Y) (h : (rd m c).Finds 0 t Y) : Y = iblk m c 0 t := by
  obtain ⟨d, e⟩ := (dat m c).toR_finds 0 t Y (((dat m c).toR.override_finds (ovr := ovr m c) (w := 0) rfl t Y).mp h)
  exact e.trans (before_0 m c t d)
theorem finds_1 (c : Dev nD) (t : Fin cfg0.N) (Y) (h : (rd m c).Finds 1 t Y) : Y = iblk m c 1 t := by
  obtain ⟨d, e⟩ := (dat m c).toR_finds 1 t Y (((dat m c).toR.override_finds (ovr := ovr m c) (w := 1) rfl t Y).mp h)
  exact e.trans (before_1 m c t d)
theorem finds_2 (c : Dev nD) (t : Fin cfg0.N) (Y) (h : (rd m c).Finds 2 t Y) : Y = iblk m c 2 t := by
  obtain ⟨d, e⟩ := (dat m c).toR_finds 2 t Y (((dat m c).toR.override_finds (ovr := ovr m c) (w := 2) rfl t Y).mp h)
  exact e.trans (before_2 m c t d)
theorem finds_3 (c : Dev nD) (t : Fin cfg0.N) (Y) (h : (rd m c).Finds 3 t Y) : Y = iblk m c 3 t := by
  obtain ⟨d, e⟩ := (dat m c).toR_finds 3 t Y (((dat m c).toR.override_finds (ovr := ovr m c) (w := 3) rfl t Y).mp h)
  exact e.trans (before_3 m c t d)

/-- An input's buffer left at its block is left as the relation of that window asks. -/
theorem leaves_in (c : Dev nD) (w : Fin cfg0.W) (hw : ovr m c w = none) (t : Fin cfg0.N) (Y) :
    (rd m c).after w t Y ((dat m c).after w t) := by
  rw [show (rd m c).after w = (dat m c).toR.after w from (dat m c).toR.override_after_of_eq_none hw]
  show (dat m c).Leaves w t _
  unfold Dat.Leaves
  rfl

/-- The output's relation is the slab relation. -/
theorem after_out (c : Dev nD) (t : Fin cfg0.N) (Y X : Vec F S10000x16 .f32) :
    (rd m c).after 4 t Y X ↔ slabRel m c t Y X := by
  rw [show (rd m c).after 4 = slabRel m c from (dat m c).toR.override_after_of_eq_some (ovr := ovr m c) (w := 4) rfl]

/-- The invariant before the first point is the region's own; at every later point (and after every point) it names the
    scratch. -/
theorem inv_first (c : Dev nD) (t : Fin (cfg0.N + 1)) (h : t.val = 0) : (dat m c).Φ t = Pipeline.ΦA spec0 c := by
  dsimp only [dat]; exact if_pos h
theorem inv_later (c : Dev nD) (t : Fin (cfg0.N + 1)) (h : t.val ≠ 0) :
    (dat m c).Φ t = iprop(owns (c : Thread nD τ) scM fullShare (sup m c) ∗ (∃ r, prngReg c r)) := by
  dsimp only [dat]; exact if_neg h

/-- What the body is called with at point `t`, the windows one by one, the output's buffer at whatever it may hold, -/
def bodyPre (c : Dev nD) (t : Fin cfg0.N) (Y4 : Vec F S10000x16 .f32) : sProp 𝕄 :=
  iprop((dat m c).Φ t.castSucc ∗ (dat m c).owesAt () t.castSucc
    ∗ owns (c : Thread nD τ) (ms0_0 t) fullShare (iblk m c 0 t)
    ∗ owns (c : Thread nD τ) (ms0_1 t) fullShare (iblk m c 1 t)
    ∗ owns (c : Thread nD τ) (ms0_2 t) fullShare (iblk m c 2 t)
    ∗ owns (c : Thread nD τ) (ms0_3 t) fullShare (iblk m c 3 t)
    ∗ owns (c : Thread nD τ) (ms0_4 t) fullShare Y4)

/-- and what it returns. -/
def bodyPost (c : Dev nD) (t : Fin cfg0.N) (Y4 : Vec F S10000x16 .f32) : sProp 𝕄 :=
  iprop((dat m c).Φ t.succ ∗ (dat m c).owesAt () t.succ
    ∗ owns (c : Thread nD τ) (ms0_0 t) fullShare (iblk m c 0 t)
    ∗ owns (c : Thread nD τ) (ms0_1 t) fullShare (iblk m c 1 t)
    ∗ owns (c : Thread nD τ) (ms0_2 t) fullShare (iblk m c 2 t)
    ∗ owns (c : Thread nD τ) (ms0_3 t) fullShare (iblk m c 3 t)
    ∗ (∃ X, ⌜slabRel m c t Y4 X⌝ ∗ owns (c : Thread nD τ) (ms0_4 t) fullShare X))

set_option maxHeartbeats 800000 in
/-- The body at any point: at the first, the scratch comes at anything and leaves at `x · W`; at a later one it comes and
    leaves at `x · W`; at both the output's buffer leaves with the point's slab overwritten. -/
theorem sound_body (c : Dev nD) (t : Fin cfg0.N) (Y4 : Vec F S10000x16 .f32) :
    bodyPre m c t Y4 ⊢ wp frame (wpE (defs₀ (F := F)) Variants.none c none) Set.univ (bodyAt0 t) (fun _ => bodyPost m c t Y4) := by
  unfold bodyPre bodyPost bodyAt0
  rw [show (dat m c).owesAt () t.succ = (dat m c).owesAt () t.castSucc from rfl,
    inv_later m c t.succ (by simp)]
  by_cases h0 : t.val = 0
  · obtain rfl : t = t₀ := Fin.ext h0
    rw [inv_first m c (t₀ : Fin cfg0.N).castSucc rfl, scratch_inv]
    iintro ⟨⟨⟨%ds, HS⟩, Hg⟩, Ho, H0, H1, H2, H3, H4⟩
    iapply ((body_first c (grid0.coords t₀) _ _ _ _ _ _ _ _ _ _ _ _ ((isFirst_iff t₀).mpr rfl) (iblk m c 0 t₀) (iblk m c 1 t₀) (iblk m c 2 t₀) (iblk m c 3 t₀) Y4 ds) Set.univ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, HS⟩
    isplitl [HS Hg]
    · isplitl [HS]
      · iexact HS
      iexact Hg
    isplitl [Ho]; · iexact Ho
    isplitl [H0]; · iexact H0
    isplitl [H1]; · iexact H1
    isplitl [H2]; · iexact H2
    isplitl [H3]; · iexact H3
    iexists _; isplitr; swap; · iexact H4
    ipureintro; rfl
  · rw [inv_later m c t.castSucc h0]
    iintro ⟨⟨HS, Hg⟩, Ho, H0, H1, H2, H3, H4⟩
    iapply ((body_later c (grid0.coords t) _ _ _ _ _ _ _ _ _ _ _ _ (fun h => h0 ((isFirst_iff t).mp h)) (iblk m c 0 t) (iblk m c 1 t) (iblk m c 2 t) (iblk m c 3 t) Y4 (sup m c)) Set.univ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, HS⟩
    isplitl [HS Hg]
    · isplitl [HS]
      · iexact HS
      iexact Hg
    isplitl [Ho]; · iexact Ho
    isplitl [H0]; · iexact H0
    isplitl [H1]; · iexact H1
    isplitl [H2]; · iexact H2
    isplitl [H3]; · iexact H3
    iexists _; isplitr; swap; · iexact H4
    ipureintro; rfl

/-- The library's body obligation, at every point, for whatever the buffers may hold. -/
theorem body_obligation (c : Dev nD) : (rd m c).BodyObligation (defs₀ (F := F)) Variants.none () Set.univ := by
  intro t Y hY
  have e0 := finds_0 m c t (Y 0) (hY 0)
  have e1 := finds_1 m c t (Y 1) (hY 1)
  have e2 := finds_2 m c t (Y 2) (hY 2)
  have e3 := finds_3 m c t (Y 3) (hY 3)
  rw [bigSep_W0, bigSep_W0, e0, e1, e2, e3]
  refine (sound_body m c t (Y 4)).trans (wp_mono _ _ _ fun _ => ?_)
  unfold bodyPost
  rw [show (rd m c).Φ t.succ = (dat m c).Φ t.succ from rfl,
    show (rd m c).owesAt () t.succ = (dat m c).owesAt () t.succ from rfl]
  iintro ⟨HΦ, Ho, H0, H1, H2, H3, ⟨%X, %hX, H4⟩⟩
  isplitl [HΦ]; · iexact HΦ
  isplitl [Ho]; · iexact Ho
  isplitl [H0]
  · iexists _; isplitr; swap; · iexact H0
    ipureintro; exact (after_0 m c t) ▸ leaves_in m c 0 rfl t _
  isplitl [H1]
  · iexists _; isplitr; swap; · iexact H1
    ipureintro; exact (after_1 m c t) ▸ leaves_in m c 1 rfl t _
  isplitl [H2]
  · iexists _; isplitr; swap; · iexact H2
    ipureintro; exact (after_2 m c t) ▸ leaves_in m c 2 rfl t _
  isplitl [H3]
  · iexists _; isplitr; swap; · iexact H3
    ipureintro; exact (after_3 m c t) ▸ leaves_in m c 3 rfl t _
  iexists X; isplitr
  · ipureintro; exact (after_out m c t _ X).mpr hX
  iexact H4

/-! ## The run -/

set_option backward.isDefEq.respectTransparency.types false in
/-- Every weakly fair execution of @main terminates; every final state has each windowed array at contents it may hold
    after the write-backs (an input its entry contents; the output its entry contents overwritten, at the one
    write-back, by something the last point may leave), every other buffer as at entry. -/
theorem run_main : θ_run defs (onTc (τ := τ) (main (F := F))) (s₀ m ρ) (Pipeline.RDat.FramePost (cfgs 0) (fun c => rd m c) (V m)) :=
  Pipeline.RDat.θ_run_frame_track cfgs (0 : Fin 1) launch0 defs₀ Variants.none (fun c => rd m c) m ρ main
    (hbody := fun c => body_obligation m c) (hshare := fun c => (rd m c).share_full fun _ => rfl)
    (howed := fun _ _ => rfl) (V := V m) (hmain := hmain m Variants.none) (hA := A_eq m)
    (hin := fun c => by rw [show (rd m c).Φ 0 = (dat m c).Φ 0 from rfl, inv_first m c 0 rfl])
    (hout := fun c => by
      rw [show (rd m c).Φ (Fin.last cfg0.N) = (dat m c).Φ (Fin.last cfg0.N) from rfl,
        inv_later m c (Fin.last cfg0.N) (by decide), scratch_inv]
      iintro ⟨HS, Hg⟩
      isplitl [HS]
      · iexists _; iexact HS
      iexact Hg)

/-- The frame: the four argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(Eq.mp (congrFun ((rd m c).ArrAt_in 0 rfl _) _) ((h c).1 0)).trans ((A_eq m c 0).trans (V_main_arg0 m c)),
      (Eq.mp (congrFun ((rd m c).ArrAt_in 3 rfl _) _) ((h c).1 3)).trans ((A_eq m c 3).trans (V_main_arg1 m c)),
      (Eq.mp (congrFun ((rd m c).ArrAt_in 1 rfl _) _) ((h c).1 1)).trans ((A_eq m c 1).trans (V_main_arg2 m c)),
      (Eq.mp (congrFun ((rd m c).ArrAt_in 2 rfl _) _) ((h c).1 2)).trans ((A_eq m c 2).trans (V_main_arg3 m c))⟩)
    (run_main m ρ)

end Cert.Kernel.Hand

end
-- ==== Proof.BodyKit.lean ====
import proofs.«181991_g8967891714351_rerun558fix_450_27_alg».proof.Proof.Gen.KernelIdeal.Launch
import proofs.«181991_g8967891714351_rerun558fix_450_27_alg».proof.Proof.Gen.KernelIdeal.Skeleton
import proofs.«181991_g8967891714351_rerun558fix_450_27_alg».proof.Proof.Gen.KernelIdeal.Points
import proofs.«181991_g8967891714351_rerun558fix_450_27_alg».proof.Proof.Gen.KernelIdeal.Frame
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

/-! The kernel body's surroundings: which grid point is the first, which rows of the output's buffer a point stores,
    and the staging and scratch memrefs the body is called with. -/

theorem hz2 : (![0, 0] : Fin 2 → ℕ) = fun _ => 0 := funext fun a => by fin_cases a <;> rfl
theorem hz1 : (![0] : Fin 1 → ℕ) = fun _ => 0 := funext fun a => by fin_cases a <;> rfl

/-- The body's one branch condition, computed from the grid coordinate: the point is the first one. -/
abbrev isFirst (i : grid0.Coords) : Prop := (Scalar.cmpi .ne (Scalar.extui (Scalar.cmpi .eq (BitVec.ofNat 32 (i 0).val) 0#32)) 0#32) = 1#1

/-- It holds at point 0 and at no other of the 25 points: decided over the grid. -/
theorem isFirst_iff : ∀ t : Fin cfg0.N, isFirst (grid0.coords t) ↔ t.val = 0 :=
  (by decide +kernel : ∀ t : Fin grid0.N, isFirst (grid0.coords t) ↔ t.val = 0)

/-- The slab of the output's buffer a point stores: 400 rows starting at the row the point's coordinate chooses, all 16 columns. -/
abbrev slab (i : grid0.Coords) : Rect S10000x16 := Rect.unit (s := S10000x16) (k0_off1 i) S400x16.size (k0_off1_inb i)

/-- The slab of point `t` starts at row `400 t`, column 0: decided over the grid. -/
theorem slab_off : ∀ t : Fin cfg0.N, k0_off1 (grid0.coords t) = ![400 * t.val, 0] :=
  (by decide +kernel : ∀ t : Fin grid0.N, k0_off1 (grid0.coords t) = ![400 * t.val, 0])

/-- Each window's current staging memref at point `t`, as the pipeline passes it to the body, and its wholeness. -/
abbrev ms0_0 (t : Fin cfg0.N) : Memref sig .tc .vmem S10000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x16 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S16 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S400x10000 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S10000x16 .f32 := win0_4.stage (cfg0.slots t 4)
abbrev hs0_4 (t : Fin cfg0.N) : (ms0_4 t).IsWhole := hstage0_4 ((cfg0.slots t 4).cast nbuf0_4)
/-- The scratch operand: a whole scoped buffer of the kernel's own, in which the product `x · W` is kept between points. -/
abbrev scM : Memref sig .tc .vmem S10000x16 .f32 := Memref.whole cc0_scratch0

/-- What the region hands the body besides the windows: the scratch owned at some contents, and the generator register. -/
theorem scratch_inv (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.KernelIdeal.Hand

end
-- ==== Proof.BodyFirst.lean ====
import proofs.«181991_g8967891714351_rerun558fix_450_27_alg».proof.Proof.BodyKit
import proofs.«181991_g8967891714351_rerun558fix_450_27_alg».proof.Proof.Gen.KernelIdeal.Launch
import proofs.«181991_g8967891714351_rerun558fix_450_27_alg».proof.Proof.Gen.KernelIdeal.Skeleton
import proofs.«181991_g8967891714351_rerun558fix_450_27_alg».proof.Proof.Gen.KernelIdeal.Points
import proofs.«181991_g8967891714351_rerun558fix_450_27_alg».proof.Proof.Gen.KernelIdeal.Frame
import Idealize.ShloMosaic.Lib.Pipeline.FrameBody
import Idealize.ShloMosaic.Lib.Pipeline.Value
import Idealize.ShloMosaic.Lib.WritesUnit
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

-- the executor's proof term is large: checking it walks past the default budget
set_option maxHeartbeats 1000000 in
/-- The body at the FIRST grid point, on whole staging memrefs holding the inputs' blocks, the output's buffer at any
    contents `y` and the scratch at any contents: it computes `x · W` into the scratch, then the block of the result from
    the adjacency's rows, that product and the bias, and stores it over the point's slab of the output's buffer; the
    inputs' buffers are left as found. -/
theorem body_first (c : Dev nD) (i : grid0.Coords) (arg1 : Memref sig .tc .vmem S10000x128 .f32) (harg1 : arg1.IsWhole) (arg2 : Memref sig .tc .vmem S128x16 .f32) (harg2 : arg2.IsWhole) (arg3 : Memref sig .tc .vmem S16 .f32) (harg3 : arg3.IsWhole) (arg4 : Memref sig .tc .vmem S400x10000 .f32) (harg4 : arg4.IsWhole) (arg5 : Memref sig .tc .vmem S10000x16 .f32) (harg5 : arg5.IsWhole) (arg6 : Memref sig .tc .vmem S10000x16 .f32) (harg6 : arg6.IsWhole) (hc0 : isFirst i)
    (x0 : Vec F S10000x128 .f32) (x1 : Vec F S128x16 .f32) (x2 : Vec F S16 .f32) (x3 : Vec F S400x10000 .f32) (y : Vec F S10000x16 .f32) (s : Vec F S10000x16 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare y ∗ owns (c : Thread nD τ) arg6 fullShare s
            ∗ (iprop(owns (c : Thread nD τ) arg1 fullShare x0 ∗ owns (c : Thread nD τ) arg2 fullShare x1 ∗ owns (c : Thread nD τ) arg3 fullShare x2 ∗ owns (c : Thread nD τ) arg4 fullShare x3
                ∗ owns (c : Thread nD τ) arg5 fullShare (arg5.view.read (Elt F) (arg5.view.writes (Elt F) (harg5.unread y) [⟨slab i, k0_pay2 x3 (k0_pay1 x0 x1) x2⟩]))
                ∗ owns (c : Thread nD τ) arg6 fullShare (k0_pay1 x0 x1)) -∗ K ⟨⟩))
          ⊢ wp frame (wpE (defs₀ (F := F)) Variants.none c none) E (cc0__gcn_block_kernel i arg1 harg1 arg2 harg2 arg3 harg3 arg4 harg4 arg5 harg5 arg6 harg6) K := by
    intro E K
    simp only [cc0__gcn_block_kernel_eq_skeleton]; unfold cc0__gcn_block_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg1.eq_unread hf0; obtain rfl := harg2.eq_unread hf1; obtain rfl := harg3.eq_unread hf2; obtain rfl := harg4.eq_unread hf3
    obtain rfl := harg5.eq_unread hf4; obtain rfl := harg6.eq_unread hfs0
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; swap; · iexact H4
      ipureintro
      sl_unfold_run_names
      rw [View.readCov_unit_zero (S := S10000x16) arg6.view hz2]
      simp only [View.readAt_eq_ld, harg1.read_unread, harg2.read_unread, harg3.read_unread, harg4.read_unread,
        View.ld_unit_zero (S := S10000x128) hz2, View.ld_unit_zero (S := S128x16) hz2, View.ld_unit_zero (S := S400x10000) hz2, View.ld_unit_zero (S := S16) hz1]
    iexists _; isplitr; swap; · iexact HS0
    ipureintro
    sl_unfold_run_names
    simp only [View.readAt_eq_ld, harg1.read_unread, harg2.read_unread, View.ld_unit_zero (S := S10000x128) hz2, View.ld_unit_zero (S := S128x16) hz2]
    funext y
    exact View.read_writes_cons_unit_of_mem arg6.view (harg6.unread s) inb_S10000x16_S10000x16_0_0 (k0_pay1 x0 x1) [] y y hz2
      (fun a => (Nat.zero_add _).symm)

end Cert.KernelIdeal.Hand

end
-- ==== Proof.BodyLater.lean ====
import proofs.«181991_g8967891714351_rerun558fix_450_27_alg».proof.Proof.BodyKit
import proofs.«181991_g8967891714351_rerun558fix_450_27_alg».proof.Proof.Gen.KernelIdeal.Launch
import proofs.«181991_g8967891714351_rerun558fix_450_27_alg».proof.Proof.Gen.KernelIdeal.Skeleton
import proofs.«181991_g8967891714351_rerun558fix_450_27_alg».proof.Proof.Gen.KernelIdeal.Points
import proofs.«181991_g8967891714351_rerun558fix_450_27_alg».proof.Proof.Gen.KernelIdeal.Frame
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

-- the executor's proof term is large: checking it walks past the default budget
set_option maxHeartbeats 1000000 in
/-- The body at a LATER grid point, the scratch holding some contents `s` (the product `x · W` once the first point has
    run): it computes the block of the result from the adjacency's rows, `s` and the bias, and stores it over the point's
    slab of the output's buffer; the inputs' buffers and the scratch are left as found. -/
theorem body_later (c : Dev nD) (i : grid0.Coords) (arg1 : Memref sig .tc .vmem S10000x128 .f32) (harg1 : arg1.IsWhole) (arg2 : Memref sig .tc .vmem S128x16 .f32) (harg2 : arg2.IsWhole) (arg3 : Memref sig .tc .vmem S16 .f32) (harg3 : arg3.IsWhole) (arg4 : Memref sig .tc .vmem S400x10000 .f32) (harg4 : arg4.IsWhole) (arg5 : Memref sig .tc .vmem S10000x16 .f32) (harg5 : arg5.IsWhole) (arg6 : Memref sig .tc .vmem S10000x16 .f32) (harg6 : arg6.IsWhole) (hc0 : ¬isFirst i)
    (x0 : Vec F S10000x128 .f32) (x1 : Vec F S128x16 .f32) (x2 : Vec F S16 .f32) (x3 : Vec F S400x10000 .f32) (y : Vec F S10000x16 .f32) (s : Vec F S10000x16 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare y ∗ owns (c : Thread nD τ) arg6 fullShare s
            ∗ (iprop(owns (c : Thread nD τ) arg1 fullShare x0 ∗ owns (c : Thread nD τ) arg2 fullShare x1 ∗ owns (c : Thread nD τ) arg3 fullShare x2 ∗ owns (c : Thread nD τ) arg4 fullShare x3
                ∗ owns (c : Thread nD τ) arg5 fullShare (arg5.view.read (Elt F) (arg5.view.writes (Elt F) (harg5.unread y) [⟨slab i, k0_pay2 x3 s x2⟩]))
                ∗ owns (c : Thread nD τ) arg6 fullShare s) -∗ K ⟨⟩))
          ⊢ wp frame (wpE (defs₀ (F := F)) Variants.none c none) E (cc0__gcn_block_kernel i arg1 harg1 arg2 harg2 arg3 harg3 arg4 harg4 arg5 harg5 arg6 harg6) K := by
    intro E K
    simp only [cc0__gcn_block_kernel_eq_skeleton]; unfold cc0__gcn_block_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg1.eq_unread hf0; obtain rfl := harg2.eq_unread hf1; obtain rfl := harg3.eq_unread hf2; obtain rfl := harg4.eq_unread hf3
    obtain rfl := harg5.eq_unread hf4; obtain rfl := harg6.eq_unread hfs0
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; swap; · iexact H4
      ipureintro
      simp only [View.readAt_eq_ld, harg3.read_unread, harg4.read_unread, harg6.read_unread,
        View.ld_unit_zero (S := S10000x16) hz2, View.ld_unit_zero (S := S400x10000) hz2, View.ld_unit_zero (S := S16) hz1]
    iexists _; isplitr; swap; · iexact HS0
    ipureintro
    exact harg6.read_unread _

end Cert.KernelIdeal.Hand

end
-- ==== Proof.FrameData.lean ====
import proofs.«181991_g8967891714351_rerun558fix_450_27_alg».proof.Proof.BodyFirst
import proofs.«181991_g8967891714351_rerun558fix_450_27_alg».proof.Proof.BodyLater
import proofs.«181991_g8967891714351_rerun558fix_450_27_alg».proof.Proof.Gen.KernelIdeal.Launch
import proofs.«181991_g8967891714351_rerun558fix_450_27_alg».proof.Proof.Gen.KernelIdeal.Skeleton
import proofs.«181991_g8967891714351_rerun558fix_450_27_alg».proof.Proof.Gen.KernelIdeal.Points
import proofs.«181991_g8967891714351_rerun558fix_450_27_alg».proof.Proof.Gen.KernelIdeal.Frame
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

/-! The proof data of the one pipeline, and the body obligation.

    The three whole-array inputs and the adjacency's row block are found at their blocks at every point.  The scratch
    holds the product `x · W` from the first point on: the region's invariant says so at every later point.  The output's
    buffer is written back once, after the last point, and each point overwrites only its own slab of 400 rows of it; so
    what a point leaves there is stated as a RELATION to what it found: the same contents with the slab overwritten by
    the block of the result the point computes. -/

variable (m : (ℓ : Loc nD τ sig) → Buf (Elt F) ℓ) (ρ : Dev nD → PrngReg)

/-- The first grid point. -/
abbrev t₀ : Fin cfg0.N := ⟨0, lt_of_lt_of_eq (by decide : 0 < 25) (show 25 = cfg0.N from N_0.symm)⟩

/-- The product `x · W`, as the first point computes it from the blocks of its two operands. -/
def sup (c : Dev nD) : Vec F S10000x16 .f32 := k0_pay1 (iblk m c 0 t₀) (iblk m c 1 t₀)

/-- What point `t` leaves in the output's buffer (`X`) given what it found there (`Y`): `Y` with the point's slab
    overwritten by the block of the result computed from the adjacency's row block, the kept product and the bias. -/
def slabRel (c : Dev nD) (t : Fin cfg0.N) (Y X : Vec F S10000x16 .f32) : Prop :=
  X = (ms0_4 t).view.read (Elt F) ((ms0_4 t).view.writes (Elt F) ((hs0_4 t).unread Y)
        [⟨slab (grid0.coords t), k0_pay2 (iblk m c 3 t) (sup m c) (iblk m c 2 t)⟩])

/-- The exact part of the proof data: the arrays as the region finds them; each input's buffer left at its block;
    the invariant — before the first point the scratch at anything, afterwards at `x · W`; nothing owed; full shares.
    (The output window's entry here is never read: its relation below replaces it.) -/
def dat (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
  Φ t := if t.val = 0 then Pipeline.ΦA spec0 c
    else iprop(owns (c : Thread nD τ) scM fullShare (sup m c) ∗ (∃ r, prngReg c r))
  q _ := fullShare
  owed _ := 0

/-- The output window's relation; the inputs keep the exact data's. -/
def ovr (c : Dev nD) : (w : Fin cfg0.W) → Option (Fin cfg0.N → (Y X : (cfg0.win w).block.Idx → Elt F (cfg0.win w).elt) → Prop)
  | ⟨0, _⟩ => none
  | ⟨1, _⟩ => none
  | ⟨2, _⟩ => none
  | ⟨3, _⟩ => none
  | ⟨4, _⟩ => some (slabRel m c)

/-- The proof data, relational in the output window. -/
def rd (c : Dev nD) : RDat τ (Elt F) Unit ℕ (UR sig nD τ) ℕ cfg0 c := (dat m c).toR.override (ovr m c)

theorem A_eq (c : Dev nD) (w : Fin cfg0.W) : (rd m c).A w = V m c (Pipeline.arrRef spec0 w) := by
  show (dat m c).A w = _
  dsimp only [dat]

theorem dat_A (c : Dev nD) (w : Fin cfg0.W) : (dat m c).A w = V m c (Pipeline.arrRef spec0 w) := by
  dsimp only [dat]

theorem after_0 (c : Dev nD) (t : Fin cfg0.N) : (dat m c).after 0 t = iblk m c 0 t := by dsimp only [dat]
theorem after_1 (c : Dev nD) (t : Fin cfg0.N) : (dat m c).after 1 t = iblk m c 1 t := by dsimp only [dat]
theorem after_2 (c : Dev nD) (t : Fin cfg0.N) : (dat m c).after 2 t = iblk m c 2 t := by dsimp only [dat]
theorem after_3 (c : Dev nD) (t : Fin cfg0.N) : (dat m c).after 3 t = iblk m c 3 t := by dsimp only [dat]

/-- Each input's current buffer holds its block at every point, fetched there or not. -/
theorem before_0 (c : Dev nD) (t : Fin cfg0.N) (d) : (dat m c).before 0 t d = iblk m c 0 t :=
  before0_0_of m (dat m c) (dat_A m c 0) (after_0 m c) t d
theorem before_1 (c : Dev nD) (t : Fin cfg0.N) (d) : (dat m c).before 1 t d = iblk m c 1 t :=
  before0_1_of m (dat m c) (dat_A m c 1) (after_1 m c) t d
theorem before_2 (c : Dev nD) (t : Fin cfg0.N) (d) : (dat m c).before 2 t d = iblk m c 2 t :=
  before0_2_of m (dat m c) (dat_A m c 2) (after_2 m c) t d
theorem before_3 (c : Dev nD) (t : Fin cfg0.N) (d) : (dat m c).before 3 t d = iblk m c 3 t :=
  before0_3_of m (dat m c) (dat_A m c 3) (after_3 m c) t d

/-- So whatever the body may find in an input's buffer is that input's block. -/
theorem finds_0 (c : Dev nD) (t : Fin cfg0.N) (Y) (h : (rd m c).Finds 0 t Y) : Y = iblk m c 0 t := by
  obtain ⟨d, e⟩ := (dat m c).toR_finds 0 t Y (((dat m c).toR.override_finds (ovr := ovr m c) (w := 0) rfl t Y).mp h)
  exact e.trans (before_0 m c t d)
theorem finds_1 (c : Dev nD) (t : Fin cfg0.N) (Y) (h : (rd m c).Finds 1 t Y) : Y = iblk m c 1 t := by
  obtain ⟨d, e⟩ := (dat m c).toR_finds 1 t Y (((dat m c).toR.override_finds (ovr := ovr m c) (w := 1) rfl t Y).mp h)
  exact e.trans (before_1 m c t d)
theorem finds_2 (c : Dev nD) (t : Fin cfg0.N) (Y) (h : (rd m c).Finds 2 t Y) : Y = iblk m c 2 t := by
  obtain ⟨d, e⟩ := (dat m c).toR_finds 2 t Y (((dat m c).toR.override_finds (ovr := ovr m c) (w := 2) rfl t Y).mp h)
  exact e.trans (before_2 m c t d)
theorem finds_3 (c : Dev nD) (t : Fin cfg0.N) (Y) (h : (rd m c).Finds 3 t Y) : Y = iblk m c 3 t := by
  obtain ⟨d, e⟩ := (dat m c).toR_finds 3 t Y (((dat m c).toR.override_finds (ovr := ovr m c) (w := 3) rfl t Y).mp h)
  exact e.trans (before_3 m c t d)

/-- An input's buffer left at its block is left as the relation of that window asks. -/
theorem leaves_in (c : Dev nD) (w : Fin cfg0.W) (hw : ovr m c w = none) (t : Fin cfg0.N) (Y) :
    (rd m c).after w t Y ((dat m c).after w t) := by
  rw [show (rd m c).after w = (dat m c).toR.after w from (dat m c).toR.override_after_of_eq_none hw]
  show (dat m c).Leaves w t _
  unfold Dat.Leaves
  rfl

/-- The output's relation is the slab relation. -/
theorem after_out (c : Dev nD) (t : Fin cfg0.N) (Y X : Vec F S10000x16 .f32) :
    (rd m c).after 4 t Y X ↔ slabRel m c t Y X := by
  rw [show (rd m c).after 4 = slabRel m c from (dat m c).toR.override_after_of_eq_some (ovr := ovr m c) (w := 4) rfl]

/-- The invariant before the first point is the region's own; at every later point (and after every point) it names the
    scratch. -/
theorem inv_first (c : Dev nD) (t : Fin (cfg0.N + 1)) (h : t.val = 0) : (dat m c).Φ t = Pipeline.ΦA spec0 c := by
  dsimp only [dat]; exact if_pos h
theorem inv_later (c : Dev nD) (t : Fin (cfg0.N + 1)) (h : t.val ≠ 0) :
    (dat m c).Φ t = iprop(owns (c : Thread nD τ) scM fullShare (sup m c) ∗ (∃ r, prngReg c r)) := by
  dsimp only [dat]; exact if_neg h

/-- What the body is called with at point `t`, the windows one by one, the output's buffer at whatever it may hold, -/
def bodyPre (c : Dev nD) (t : Fin cfg0.N) (Y4 : Vec F S10000x16 .f32) : sProp 𝕄 :=
  iprop((dat m c).Φ t.castSucc ∗ (dat m c).owesAt () t.castSucc
    ∗ owns (c : Thread nD τ) (ms0_0 t) fullShare (iblk m c 0 t)
    ∗ owns (c : Thread nD τ) (ms0_1 t) fullShare (iblk m c 1 t)
    ∗ owns (c : Thread nD τ) (ms0_2 t) fullShare (iblk m c 2 t)
    ∗ owns (c : Thread nD τ) (ms0_3 t) fullShare (iblk m c 3 t)
    ∗ owns (c : Thread nD τ) (ms0_4 t) fullShare Y4)

/-- and what it returns. -/
def bodyPost (c : Dev nD) (t : Fin cfg0.N) (Y4 : Vec F S10000x16 .f32) : sProp 𝕄 :=
  iprop((dat m c).Φ t.succ ∗ (dat m c).owesAt () t.succ
    ∗ owns (c : Thread nD τ) (ms0_0 t) fullShare (iblk m c 0 t)
    ∗ owns (c : Thread nD τ) (ms0_1 t) fullShare (iblk m c 1 t)
    ∗ owns (c : Thread nD τ) (ms0_2 t) fullShare (iblk m c 2 t)
    ∗ owns (c : Thread nD τ) (ms0_3 t) fullShare (iblk m c 3 t)
    ∗ (∃ X, ⌜slabRel m c t Y4 X⌝ ∗ owns (c : Thread nD τ) (ms0_4 t) fullShare X))

set_option maxHeartbeats 800000 in
/-- The body at any point: at the first, the scratch comes at anything and leaves at `x · W`; at a later one it comes and
    leaves at `x · W`; at both the output's buffer leaves with the point's slab overwritten. -/
theorem sound_body (c : Dev nD) (t : Fin cfg0.N) (Y4 : Vec F S10000x16 .f32) :
    bodyPre m c t Y4 ⊢ wp frame (wpE (defs₀ (F := F)) Variants.none c none) Set.univ (bodyAt0 t) (fun _ => bodyPost m c t Y4) := by
  unfold bodyPre bodyPost bodyAt0
  rw [show (dat m c).owesAt () t.succ = (dat m c).owesAt () t.castSucc from rfl,
    inv_later m c t.succ (by simp)]
  by_cases h0 : t.val = 0
  · obtain rfl : t = t₀ := Fin.ext h0
    rw [inv_first m c (t₀ : Fin cfg0.N).castSucc rfl, scratch_inv]
    iintro ⟨⟨⟨%ds, HS⟩, Hg⟩, Ho, H0, H1, H2, H3, H4⟩
    iapply ((body_first c (grid0.coords t₀) _ _ _ _ _ _ _ _ _ _ _ _ ((isFirst_iff t₀).mpr rfl) (iblk m c 0 t₀) (iblk m c 1 t₀) (iblk m c 2 t₀) (iblk m c 3 t₀) Y4 ds) Set.univ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, HS⟩
    isplitl [HS Hg]
    · isplitl [HS]
      · iexact HS
      iexact Hg
    isplitl [Ho]; · iexact Ho
    isplitl [H0]; · iexact H0
    isplitl [H1]; · iexact H1
    isplitl [H2]; · iexact H2
    isplitl [H3]; · iexact H3
    iexists _; isplitr; swap; · iexact H4
    ipureintro; rfl
  · rw [inv_later m c t.castSucc h0]
    iintro ⟨⟨HS, Hg⟩, Ho, H0, H1, H2, H3, H4⟩
    iapply ((body_later c (grid0.coords t) _ _ _ _ _ _ _ _ _ _ _ _ (fun h => h0 ((isFirst_iff t).mp h)) (iblk m c 0 t) (iblk m c 1 t) (iblk m c 2 t) (iblk m c 3 t) Y4 (sup m c)) Set.univ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, HS⟩
    isplitl [HS Hg]
    · isplitl [HS]
      · iexact HS
      iexact Hg
    isplitl [Ho]; · iexact Ho
    isplitl [H0]; · iexact H0
    isplitl [H1]; · iexact H1
    isplitl [H2]; · iexact H2
    isplitl [H3]; · iexact H3
    iexists _; isplitr; swap; · iexact H4
    ipureintro; rfl

/-- The library's body obligation, at every point, for whatever the buffers may hold. -/
theorem body_obligation (c : Dev nD) : (rd m c).BodyObligation (defs₀ (F := F)) Variants.none () Set.univ := by
  intro t Y hY
  have e0 := finds_0 m c t (Y 0) (hY 0)
  have e1 := finds_1 m c t (Y 1) (hY 1)
  have e2 := finds_2 m c t (Y 2) (hY 2)
  have e3 := finds_3 m c t (Y 3) (hY 3)
  rw [bigSep_W0, bigSep_W0, e0, e1, e2, e3]
  refine (sound_body m c t (Y 4)).trans (wp_mono _ _ _ fun _ => ?_)
  unfold bodyPost
  rw [show (rd m c).Φ t.succ = (dat m c).Φ t.succ from rfl,
    show (rd m c).owesAt () t.succ = (dat m c).owesAt () t.succ from rfl]
  iintro ⟨HΦ, Ho, H0, H1, H2, H3, ⟨%X, %hX, H4⟩⟩
  isplitl [HΦ]; · iexact HΦ
  isplitl [Ho]; · iexact Ho
  isplitl [H0]
  · iexists _; isplitr; swap; · iexact H0
    ipureintro; exact (after_0 m c t) ▸ leaves_in m c 0 rfl t _
  isplitl [H1]
  · iexists _; isplitr; swap; · iexact H1
    ipureintro; exact (after_1 m c t) ▸ leaves_in m c 1 rfl t _
  isplitl [H2]
  · iexists _; isplitr; swap; · iexact H2
    ipureintro; exact (after_2 m c t) ▸ leaves_in m c 2 rfl t _
  isplitl [H3]
  · iexists _; isplitr; swap; · iexact H3
    ipureintro; exact (after_3 m c t) ▸ leaves_in m c 3 rfl t _
  iexists X; isplitr
  · ipureintro; exact (after_out m c t _ X).mpr hX
  iexact H4

/-! ## The run -/

set_option backward.isDefEq.respectTransparency.types false in
/-- Every weakly fair execution of @main terminates; every final state has each windowed array at contents it may hold
    after the write-backs (an input its entry contents; the output its entry contents overwritten, at the one
    write-back, by something the last point may leave), every other buffer as at entry. -/
theorem run_main : θ_run defs (onTc (τ := τ) (main (F := F))) (s₀ m ρ) (Pipeline.RDat.FramePost (cfgs 0) (fun c => rd m c) (V m)) :=
  Pipeline.RDat.θ_run_frame_track cfgs (0 : Fin 1) launch0 defs₀ Variants.none (fun c => rd m c) m ρ main
    (hbody := fun c => body_obligation m c) (hshare := fun c => (rd m c).share_full fun _ => rfl)
    (howed := fun _ _ => rfl) (V := V m) (hmain := hmain m Variants.none) (hA := A_eq m)
    (hin := fun c => by rw [show (rd m c).Φ 0 = (dat m c).Φ 0 from rfl, inv_first m c 0 rfl])
    (hout := fun c => by
      rw [show (rd m c).Φ (Fin.last cfg0.N) = (dat m c).Φ (Fin.last cfg0.N) from rfl,
        inv_later m c (Fin.last cfg0.N) (by decide), scratch_inv]
      iintro ⟨HS, Hg⟩
      isplitl [HS]
      · iexists _; iexact HS
      iexact Hg)

/-- The frame: the four argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(Eq.mp (congrFun ((rd m c).ArrAt_in 0 rfl _) _) ((h c).1 0)).trans ((A_eq m c 0).trans (V_main_arg0 m c)),
      (Eq.mp (congrFun ((rd m c).ArrAt_in 3 rfl _) _) ((h c).1 3)).trans ((A_eq m c 3).trans (V_main_arg1 m c)),
      (Eq.mp (congrFun ((rd m c).ArrAt_in 1 rfl _) _) ((h c).1 1)).trans ((A_eq m c 1).trans (V_main_arg2 m c)),
      (Eq.mp (congrFun ((rd m c).ArrAt_in 2 rfl _) _) ((h c).1 2)).trans ((A_eq m c 2).trans (V_main_arg3 m c))⟩)
    (run_main m ρ)

end Cert.KernelIdeal.Hand

end
-- ==== Proof.OutputArray.lean ====
import proofs.«181991_g8967891714351_rerun558fix_450_27_alg».proof.Proof.FrameData
import proofs.«181991_g8967891714351_rerun558fix_450_27_alg».proof.Proof.Gen.KernelIdeal.Launch
import proofs.«181991_g8967891714351_rerun558fix_450_27_alg».proof.Proof.Gen.KernelIdeal.Skeleton
import proofs.«181991_g8967891714351_rerun558fix_450_27_alg».proof.Proof.Gen.KernelIdeal.Points
import proofs.«181991_g8967891714351_rerun558fix_450_27_alg».proof.Proof.Gen.KernelIdeal.Frame
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

/-! From the relational run to the output array.

    The output's buffer is handed from point to point and written back once, after the last point.  Any property of
    buffer contents that holds of everything before the first point and that each point's slab store carries one step
    further therefore holds, 25 steps on, of what is written back; and the one write-back covers the whole array, so
    the array ends holding exactly what the last point left. -/

variable (m : (ℓ : Loc nD τ sig) → Buf (Elt F) ℓ) (ρ : Dev nD → PrngReg)

/-- The output window is never fetched. -/
theorem out_fetch : ∀ t : Fin cfg0.N, (cfg0.win 4).fetch t = false :=
  (by decide +kernel : ∀ t : Fin grid0.N, win0_4.fetch t = false)

/-- Its block is the whole array at every point: the index map is constantly zero. -/
theorem out_index : ∀ (t : Fin cfg0.N) (a : Fin 2), win0_4.index t a = 0 :=
  (by decide +kernel : ∀ (t : Fin grid0.N) (a : Fin 2), win0_4.index t a = 0)

section Steps

variable (c : Dev nD)

/-- The write-back of the whole block overwrites the array with what the point left. -/
theorem write_back (t : Fin cfg0.N) (G₀ : Buf (Elt F) ((cfg0.win 4).arr.view.loc (c.tc : Thread nD τ))) (X : Vec F S10000x16 .f32) :
    ((cfg0.win 4).blk t).view.write (Elt F) G₀ ((cfg0.win 4).cut (cfg0.grid.coords t) X) Finset.univ = X := by
  have hz' : (fun a => win0_4.index t a * main_v0.ty.shape.size a) = fun _ => 0 :=
    funext fun a => by rw [out_index t a, Nat.zero_mul]
  exact Memref.write_access_unit_zero_univ (Elt F) main_v0 hz' (fun a => by rw [congrFun hz' a]; simp) G₀ X

/-- One step of the array's history, at a point that writes back: the array then holds what it held, overwritten by the
    block something the point may have left. -/
theorem arrAt_step (n : ℕ) (hn : n < cfg0.N) (hfl : (cfg0.win 4).flush ⟨n, hn⟩ = true)
    (G : Buf (Elt F) ((cfg0.win 4).arr.view.loc (c.tc : Thread nD τ))) (h : (rd m c).ArrAt 4 (n + 1) G) :
    (rd m c).ArrStep 4 ⟨n, hn⟩ ((rd m c).ArrAt 4 n) G := by
  have h' : (if h : n < cfg0.N then
      (if (cfg0.win 4).flush ⟨n, h⟩ then (rd m c).ArrStep 4 ⟨n, h⟩ ((rd m c).ArrAt 4 n) else (rd m c).ArrAt 4 n)
      else (rd m c).ArrAt 4 n) G := h
  rw [dif_pos hn, if_pos hfl] at h'
  exact h'

end Steps

section Induct

variable (c : Dev nD) (P : ℕ → Vec F S10000x16 .f32 → Prop) (h0 : ∀ Y, P 0 Y)
  (hs : ∀ (t : Fin cfg0.N) (Y X : Vec F S10000x16 .f32), P t.val Y → slabRel m c t Y X → P (t.val + 1) X)

include h0 hs

/-- What point `n` may find in the output's buffer satisfies `P n`. -/
theorem finds_out : ∀ (n : ℕ) (t : Fin cfg0.N), t.val = n → ∀ Y : Vec F S10000x16 .f32, (rd m c).Finds 4 t Y → P n Y := by
  intro n
  induction n with
  | zero => intro t _ Y _; exact h0 Y
  | succ n ih =>
    intro t ht Y hF
    rw [(rd m c).finds_of_pos (out_fetch t) (by omega)] at hF
    have hN : cfg0.N = 25 := N_0
    have hlt : n < cfg0.N := by have := t.isLt; omega
    have e : (⟨t.val - 1, Nat.lt_of_le_of_lt (Nat.sub_le _ _) t.isLt⟩ : Fin cfg0.N) = ⟨n, hlt⟩ := Fin.ext (by show t.val - 1 = n; omega)
    rw [e] at hF
    rcases hF with hfl | ⟨Y', hY', hR⟩
    · exfalso
      have h24 := (flush0_4 ⟨n, hlt⟩).mp hfl
      have : n < 24 := by have := t.isLt; omega
      have : n % 25 = n := Nat.mod_eq_of_lt (by omega)
      simp only at h24
      omega
    · exact hs ⟨n, hlt⟩ Y' Y (ih ⟨n, hlt⟩ rfl Y' hY') ((after_out m c ⟨n, hlt⟩ Y' Y).mp hR)

/-- What point `t` may leave there satisfies `P (t + 1)`. -/
theorem leaves_out (t : Fin cfg0.N) (X : Vec F S10000x16 .f32) (h : (rd m c).Leaves 4 t X) : P (t.val + 1) X := by
  obtain ⟨Y, hY, hR⟩ := h
  exact hs t Y X (finds_out m c P h0 hs t.val t rfl Y hY) ((after_out m c t Y X).mp hR)

/-- Whatever the output array may hold after all write-backs satisfies `P 25`. -/
theorem arrAt_out (G : Buf (Elt F) ((cfg0.win 4).arr.view.loc (c.tc : Thread nD τ))) (h : (rd m c).ArrAt 4 cfg0.N G) :
    ∃ X : Vec F S10000x16 .f32, P 25 X ∧ G = X := by
  have h24 : 24 < cfg0.N := lt_of_lt_of_eq (by decide : 24 < 25) (show 25 = cfg0.N from N_0.symm)
  have h' : (rd m c).ArrAt 4 (24 + 1) G := h
  obtain ⟨G₀, X, -, hL, rfl⟩ := arrAt_step m c 24 h24 ((flush0_4 ⟨24, h24⟩).mpr rfl) G h'
  exact ⟨X, leaves_out m c P h0 hs ⟨24, h24⟩ X hL, write_back c ⟨24, h24⟩ G₀ X⟩

end Induct

end Cert.KernelIdeal.Hand

end
-- ==== Proof.Spec.lean ====
/-
  The function both programs compute, index by index, over the extended reals.

  A graph-convolution layer followed by a row-wise log-softmax: with `support = x · W` (a [10000, 16] matrix), row `r` of
  the result is `logSoftmax (relu (adj[r, :] · support + b))`, where for a row `h` of 16 entries
  `logSoftmax h j = (h j - max h) - log (∑ q, exp (h q - max h))`.  Row `r` of the result depends on row `r` of the
  adjacency only, on all of `x`, `W` and `b`; that is why a row block of the adjacency determines the same row block of
  the result.  The two float words that occur (zero, and minus infinity as the maximum's starting value) are kept as
  the values their patterns denote and are never evaluated.
-/
import Idealize.ShloMosaic.PureOps.Ideal
import Idealize.ShloMosaic.Lib.ValueIdx

noncomputable section

namespace Cert.Spec

open Idealize.ShloMosaic Idealize.ShloMosaic.ValueIdx

/-- The value of the zero word. -/
abbrev zero : EReal := Ideal.ofBits .f32 0x00000000#32
/-- The value of the minus-infinity word, the starting value of a maximum. -/
abbrev negInf : EReal := Ideal.ofBits .f32 0xFF800000#32

/-- `support k j = ∑ l, x[k, l] · W[l, j]`: the product of the feature matrix and the weights. -/
def support (x : (⟨2, ![10000, 128]⟩ : Shape).Idx → EReal) (W : (⟨2, ![128, 16]⟩ : Shape).Idx → EReal)
    (k : Fin 10000) (j : Fin 16) : EReal :=
  ∑ l : Fin 128, x (ix2 k l) * W (ix2 l j)

/-- One row of the activations: for a row `a` of the adjacency, `max (∑ k, a k · s k j + b j) 0`. -/
def act (s : Fin 10000 → Fin 16 → EReal) (b : (⟨1, ![16]⟩ : Shape).Idx → EReal) (a : Fin 10000 → EReal) (j : Fin 16) : EReal :=
  max ((∑ k : Fin 10000, a k * s k j) + b (ix1 j)) zero

/-- The largest entry of a row of 16, as a fold of `max` from minus infinity. -/
def rowMax (h : Fin 16 → EReal) : EReal := (Finset.univ : Finset (Fin 16)).fold max negInf h

/-- The log-softmax of a row of 16 entries, in its shifted form. -/
def logSoftmax (h : Fin 16 → EReal) (j : Fin 16) : EReal :=
  (h j - rowMax h) - Ideal.log (∑ q : Fin 16, Ideal.exp (h q - rowMax h))

/-- Entry `(r, j)` of the result, from the four argument arrays. -/
def entry (x : (⟨2, ![10000, 128]⟩ : Shape).Idx → EReal) (adj : (⟨2, ![10000, 10000]⟩ : Shape).Idx → EReal)
    (W : (⟨2, ![128, 16]⟩ : Shape).Idx → EReal) (b : (⟨1, ![16]⟩ : Shape).Idx → EReal) (r : Fin 10000) (j : Fin 16) : EReal :=
  logSoftmax (act (support x W) b fun k => adj (ix2 r k)) j

/-- The whole result array. -/
def result (x : (⟨2, ![10000, 128]⟩ : Shape).Idx → EReal) (adj : (⟨2, ![10000, 10000]⟩ : Shape).Idx → EReal)
    (W : (⟨2, ![128, 16]⟩ : Shape).Idx → EReal) (b : (⟨1, ![16]⟩ : Shape).Idx → EReal) :
    (⟨2, ![10000, 16]⟩ : Shape).Idx → EReal :=
  fun i => entry x adj W b (i 0) (i 1)

theorem result_ix2 (x : (⟨2, ![10000, 128]⟩ : Shape).Idx → EReal) (adj : (⟨2, ![10000, 10000]⟩ : Shape).Idx → EReal)
    (W : (⟨2, ![128, 16]⟩ : Shape).Idx → EReal) (b : (⟨1, ![16]⟩ : Shape).Idx → EReal) (r : Fin 10000) (j : Fin 16) :
    result x adj W b (ix2 r j) = entry x adj W b r j := rfl

end Cert.Spec

end
-- ==== Proof.LibMaxLayout.lean ====
/-
  The largest entry of a row, read at an index given by coordinates, over the extended reals: a maximum along the
  second axis of an `[a, n]` array, read at row `p`, is the fold of `max`, from the starting value, over the entries
  `(p, k)` of that row — for the vector unit's reduction (started from the value its accumulator word denotes) and for
  the host's one-operand reduction with a `max` body (started from its initial value's one element) alike.  Both are the
  library's single-axis readings with the inserted index named by its two coordinates.
  General in the extents; stated over indices built from coordinates so that they apply by unification.  The proofs of
  the reductions' side conditions are variables, so that whatever proof a program's text carries unifies with them.
-/
import Idealize.ShloMosaic.Lib.ValueIdx
import Idealize.ShloMosaic.PureOps.Ideal.Laws

namespace Cert.Lib.MaxLayout

open Idealize.ShloMosaic Idealize.ShloMosaic.ValueIdx

/-- The vector unit's maximum along the second axis, read at row `p`. -/
theorem max_axis1_apply {a n : ℕ} (v : FVec Ideal ⟨2, ![a, n]⟩ .f32) (acc : BitVec 32)
    (h : (⟨2, ![a, n]⟩ : Shape).Reduces [1] ⟨1, ![a]⟩) (hφ : FKind.Formats .f32) (hacc : acc = FKind.maximumf.neutral .f32 hφ)
    (p : Fin a) :
    multiReduction .maximumf [1] ⟨1, ![a]⟩ v acc h hφ hacc (ix1 p)
      = (Finset.univ : Finset (Fin n)).fold max (Ideal.ofBits .f32 acc) fun k => v (ix2 p k) := by
  refine (Ideal.multiReduction_maximumf_single v acc h hφ hacc (ix1 p)).trans ?_
  refine congrArg (fun f => (Finset.univ : Finset (Fin n)).fold max (Ideal.ofBits .f32 acc) f) (funext fun k => congrArg v (funext fun d => ?_))
  match d with
  | ⟨0, _⟩ => rfl
  | ⟨1, _⟩ => rfl

/-- The host's maximum along the second axis, read at row `p`: the fold starts from the initial value's element. -/
theorem hostMax_axis1_apply {a n : ℕ} {u : Shape} (x : (⟨2, ![a, n]⟩ : Shape).Idx → EReal) (init : u.Idx → EReal)
    (h' : (⟨2, ![a, n]⟩ : Shape).ReducesTo [1] ⟨1, ![a]⟩) (h : (⟨2, ![a, n]⟩ : Shape).Reduces [1] ⟨1, ![a]⟩)
    (hu : 0 < u.numel) (p : Fin a) :
    Host.reduce (FloatOps.maximumf (F := Ideal) (φ := .f32)) x init h' hu (ix1 p)
      = (Finset.univ : Finset (Fin n)).fold max (init (Shape.Idx.first hu)) fun k => x (ix2 p k) := by
  refine (Host.reduce_eq_fold_single (FloatOps.maximumf (F := Ideal) (φ := .f32)) x init h' h hu (ix1 p)).trans ?_
  refine congrArg (fun f => (Finset.univ : Finset (Fin n)).fold max (init (Shape.Idx.first hu)) f) (funext fun k => congrArg x (funext fun d => ?_))
  match d with
  | ⟨0, _⟩ => rfl
  | ⟨1, _⟩ => rfl

end Cert.Lib.MaxLayout
-- ==== Proof.LibReduceLayout.lean ====
/-
  Sums and one more column form, read at an index given by coordinates, over the extended reals.
    * a sum along the second axis of an `[a, n]` array, read at row `p`, is the sum over `k` of the entries `(p, k)`;
    * a sum along the first axis of a column `[a, 1]`, read at its one index, is the sum over `p` of the entries `(p, 0)`;
    * a column `[a, 1]` transposed to the row `[1, a]` and repeated along a new first axis of extent `b` reads, at
      `(p, q)`, the column's entry in row `q`.
  General in the extents; stated over indices built from coordinates so that they apply by unification.  The proofs of
  the reductions' side conditions are variables, so that whatever proof a program's text carries unifies with them.
-/
import Idealize.ShloMosaic.Lib.ValueLayout
import Idealize.ShloMosaic.PureOps.Ideal.Laws

namespace Cert.Lib.ReduceLayout

open Idealize.ShloMosaic Idealize.ShloMosaic.ValueIdx

/-- A sum along the second axis, read at row `p`. -/
theorem sum_axis1_apply {a n : ℕ} (v : FVec Ideal ⟨2, ![a, n]⟩ .f32) (acc : BitVec 32)
    (h : (⟨2, ![a, n]⟩ : Shape).Reduces [1] ⟨1, ![a]⟩) (hφ : FKind.Formats .f32) (hacc : acc = FKind.add.neutral .f32 hφ)
    (p : Fin a) :
    multiReduction .add [1] ⟨1, ![a]⟩ v acc h hφ hacc (ix1 p) = ∑ k : Fin n, v (ix2 p k) := by
  refine (Ideal.multiReduction_add_single v acc h hφ hacc (ix1 p)).trans ?_
  refine Finset.sum_congr rfl fun k _ => congrArg v (funext fun d => ?_)
  match d with
  | ⟨0, _⟩ => rfl
  | ⟨1, _⟩ => rfl

/-- A sum along the first axis of a column, read at its one index. -/
theorem sum_axis0_col_apply {a : ℕ} (v : FVec Ideal ⟨2, ![a, 1]⟩ .f32) (acc : BitVec 32)
    (h : (⟨2, ![a, 1]⟩ : Shape).Reduces [0] ⟨1, ![1]⟩) (hφ : FKind.Formats .f32) (hacc : acc = FKind.add.neutral .f32 hφ)
    (y : (⟨1, ![1]⟩ : Shape).Idx) :
    multiReduction .add [0] ⟨1, ![1]⟩ v acc h hφ hacc y = ∑ p : Fin a, v (ix2 p (0 : Fin 1)) := by
  refine (Ideal.multiReduction_add_single v acc h hφ hacc y).trans ?_
  refine Finset.sum_congr rfl fun p _ => congrArg v (funext fun d => ?_)
  match d with
  | ⟨0, _⟩ => rfl
  | ⟨1, _⟩ =>
    have h1 : (h.lift y p (1 : Fin 2)).val < 1 := (h.lift y p (1 : Fin 2)).isLt
    exact Fin.ext (by show (h.lift y p (1 : Fin 2)).val = 0; omega)

variable {α : Type}

/-- A column turned into a row and repeated over `b` rows reads, at `(p, q)`, the column's entry in row `q`. -/
theorem broadcastTo_transpose_col_apply {a b : ℕ} (v : (⟨2, ![a, 1]⟩ : Shape).Idx → α)
    (ht : (⟨2, ![a, 1]⟩ : Shape).Transposes [1, 0] ⟨2, ![1, a]⟩) (hb : (⟨2, ![1, a]⟩ : Shape).Broadcasts ⟨2, ![b, a]⟩)
    (p : Fin b) (q : Fin a) :
    broadcastTo ⟨2, ![b, a]⟩ (transpose ⟨2, ![1, a]⟩ [1, 0] v ht) hb (ix2 p q) = v (ix2 q (0 : Fin 1)) :=
  (broadcastTo_1b_ab_apply _ hb p q).trans (transpose_ix2_apply v ht (0 : Fin 1) q)

end Cert.Lib.ReduceLayout
-- ==== Proof.LibColumnLayout.lean ====
/-
  Two layout operations read at an index given by coordinates: the column forms a `keepdims` row reduction meets.
  A vector of `a` row values becomes an `[a, 1]` column by a shape cast, and that column is repeated along a new
  second axis of extent `b` by a broadcast; read at `(i, j)` the result is the vector's value at `i`, whatever `j`.
  General in the extents; stated over indices built from coordinates so that they apply by unification.
-/
import Idealize.ShloMosaic.Lib.ValueLayout

namespace Cert.Lib.ColumnLayout

open Idealize.ShloMosaic Idealize.ShloMosaic.ValueIdx

variable {α : Type}

/-- An `[a]` array cast to the column `[a, 1]` reads, at `(i, u)`, the operand at `i`, whatever the unit coordinate `u`:
    both indices have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry in row `p`: the unit axis is read at `0`,
    the row axis at `p` (when `a` is itself `1` the row coordinate is `0` either way). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.ColumnLayout
-- ==== Proof.Payload.lean ====
/-
  The two values the kernel's body stores, read at an index given by coordinates, over the extended reals.

  The first is the support matrix `x · W`: its entry `(k, j)` is the sum over the 128 features `l` of `x[k, l] · W[l, j]`.
  The second is one block of 400 rows of the result.  For a row `p` of the block, with `a[p, :]` the corresponding row of
  the adjacency and `s` the support, the activations are `h q = max (∑ k, a[p, k] · s[k, q] + b q) 0` for the 16 columns
  `q`, and the stored entry `(p, j)` is the shifted log-softmax `(h j - m) - log (∑ q, exp (h q - m))` with `m` the largest
  of the `h q`.  Every operation but the two matrix products, the two row reductions and the layout changes acts entry by
  entry; each of the others gets one lemma reading it at coordinates, and the two theorems at the end compose them.
  A matrix product accumulated from the zero word is the plain sum of products over the contracted axis, once that axis'
  one-coordinate index is replaced by the coordinate itself.  The row maximum and the row sum produce one value per row;
  each is turned into a column and repeated along the 16 columns, so at `(p, j)` it contributes the value of row `p`
  whatever `j` is — which is what makes the block's entry a function of row `p` of the activations alone.
-/
import proofs.«181991_g8967891714351_rerun558fix_450_27_alg».proof.Proof.Gen.KernelIdeal.Skeleton
import proofs.«181991_g8967891714351_rerun558fix_450_27_alg».proof.Proof.Spec
import proofs.«181991_g8967891714351_rerun558fix_450_27_alg».proof.Proof.LibMaxLayout
import proofs.«181991_g8967891714351_rerun558fix_450_27_alg».proof.Proof.LibReduceLayout
import proofs.«181991_g8967891714351_rerun558fix_450_27_alg».proof.Proof.LibColumnLayout
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx

/-- In the product of the features and the weights, the left operand's row coordinate is the result's row. -/
theorem xW_lhs0 (i : S10000x16.Idx) (q : dot_S10000x128_S128x16_S10000x16_1_0_0_1_n_n.contr.Idx) : (dot_S10000x128_S128x16_S10000x16_1_0_0_1_n_n.lhsIdx i q 0).val = (i 0).val := by
  unfold DotDims.lhsIdx
  rw [dif_neg (show ¬(0 : Fin S10000x128.rank) ∈ dot_S10000x128_S128x16_S10000x16_1_0_0_1_n_n.lhsBatch by decide), dif_pos (show (0 : Fin S10000x128.rank) ∈ dot_S10000x128_S128x16_S10000x16_1_0_0_1_n_n.lhsNonContracting by decide)]
  rfl
theorem xW_lhs1 (i : S10000x16.Idx) (q : dot_S10000x128_S128x16_S10000x16_1_0_0_1_n_n.contr.Idx) : (dot_S10000x128_S128x16_S10000x16_1_0_0_1_n_n.lhsIdx i q 1).val = (q ⟨0, by decide⟩).val :=
  dot_S10000x128_S128x16_S10000x16_1_0_0_1_n_n.lhsIdx_val_of_single rfl i q
theorem xW_rhs0 (i : S10000x16.Idx) (q : dot_S10000x128_S128x16_S10000x16_1_0_0_1_n_n.contr.Idx) : (dot_S10000x128_S128x16_S10000x16_1_0_0_1_n_n.rhsIdx i q 0).val = (q ⟨0, by decide⟩).val :=
  dot_S10000x128_S128x16_S10000x16_1_0_0_1_n_n.rhsIdx_val_of_single rfl i q
/-- The right operand's column coordinate is the result's column. -/
theorem xW_rhs1 (i : S10000x16.Idx) (q : dot_S10000x128_S128x16_S10000x16_1_0_0_1_n_n.contr.Idx) : (dot_S10000x128_S128x16_S10000x16_1_0_0_1_n_n.rhsIdx i q 1).val = (i 1).val := by
  unfold DotDims.rhsIdx
  rw [dif_neg (show ¬(1 : Fin S128x16.rank) ∈ dot_S10000x128_S128x16_S10000x16_1_0_0_1_n_n.rhsBatch by decide), dif_pos (show (1 : Fin S128x16.rank) ∈ dot_S10000x128_S128x16_S10000x16_1_0_0_1_n_n.rhsNonContracting by decide)]
  rfl

/-- The product of the feature matrix and the weights, accumulated from zero, at `(k, j)`: the sum over the 128 features `l` of `x[k, l] · W[l, j]`. -/
theorem matmul_xW_apply (x : FVec Ideal S10000x128 .f32) (W : FVec Ideal S128x16 .f32) (k : Fin 10000) (j : Fin 16) :
    matmul dot_S10000x128_S128x16_S10000x16_1_0_0_1_n_n none x W (constant (F := Ideal) S10000x16 .f32 0x00000000#32) (ix2 k j)
      = ∑ l : Fin 128, x (ix2 k l) * W (ix2 l j) := by
  refine (Ideal.matmul_constant_zero_apply dot_S10000x128_S128x16_S10000x16_1_0_0_1_n_n none x W (ix2 k j)).trans ?_
  rw [← Equiv.sum_comp (contrEquiv1 dot_S10000x128_S128x16_S10000x16_1_0_0_1_n_n 128 rfl rfl).symm]
  refine Finset.sum_congr rfl fun l _ => ?_
  have hk := contrEquiv1_symm_val dot_S10000x128_S128x16_S10000x16_1_0_0_1_n_n 128 rfl rfl l
  have el : dot_S10000x128_S128x16_S10000x16_1_0_0_1_n_n.lhsIdx (ix2 k j) ((contrEquiv1 dot_S10000x128_S128x16_S10000x16_1_0_0_1_n_n 128 rfl rfl).symm l) = ix2 k l :=
    funext fun ax => Fin.ext (by
      match ax with
      | ⟨0, _⟩ => exact xW_lhs0 _ _
      | ⟨1, _⟩ => exact (xW_lhs1 _ _).trans hk)
  have er : dot_S10000x128_S128x16_S10000x16_1_0_0_1_n_n.rhsIdx (ix2 k j) ((contrEquiv1 dot_S10000x128_S128x16_S10000x16_1_0_0_1_n_n 128 rfl rfl).symm l) = ix2 l j :=
    funext fun ax => Fin.ext (by
      match ax with
      | ⟨0, _⟩ => exact (xW_rhs0 _ _).trans hk
      | ⟨1, _⟩ => exact xW_rhs1 _ _)
  rw [el, er]

/-- In the product of an adjacency block and the support, the left operand's row coordinate is the result's row. -/
theorem as_lhs0 (i : S400x16.Idx) (q : dot_S400x10000_S10000x16_S400x16_1_0_0_1_n_n.contr.Idx) : (dot_S400x10000_S10000x16_S400x16_1_0_0_1_n_n.lhsIdx i q 0).val = (i 0).val := by
  unfold DotDims.lhsIdx
  rw [dif_neg (show ¬(0 : Fin S400x10000.rank) ∈ dot_S400x10000_S10000x16_S400x16_1_0_0_1_n_n.lhsBatch by decide), dif_pos (show (0 : Fin S400x10000.rank) ∈ dot_S400x10000_S10000x16_S400x16_1_0_0_1_n_n.lhsNonContracting by decide)]
  rfl
theorem as_lhs1 (i : S400x16.Idx) (q : dot_S400x10000_S10000x16_S400x16_1_0_0_1_n_n.contr.Idx) : (dot_S400x10000_S10000x16_S400x16_1_0_0_1_n_n.lhsIdx i q 1).val = (q ⟨0, by decide⟩).val :=
  dot_S400x10000_S10000x16_S400x16_1_0_0_1_n_n.lhsIdx_val_of_single rfl i q
theorem as_rhs0 (i : S400x16.Idx) (q : dot_S400x10000_S10000x16_S400x16_1_0_0_1_n_n.contr.Idx) : (dot_S400x10000_S10000x16_S400x16_1_0_0_1_n_n.rhsIdx i q 0).val = (q ⟨0, by decide⟩).val :=
  dot_S400x10000_S10000x16_S400x16_1_0_0_1_n_n.rhsIdx_val_of_single rfl i q
/-- The right operand's column coordinate is the result's column. -/
theorem as_rhs1 (i : S400x16.Idx) (q : dot_S400x10000_S10000x16_S400x16_1_0_0_1_n_n.contr.Idx) : (dot_S400x10000_S10000x16_S400x16_1_0_0_1_n_n.rhsIdx i q 1).val = (i 1).val := by
  unfold DotDims.rhsIdx
  rw [dif_neg (show ¬(1 : Fin S10000x16.rank) ∈ dot_S400x10000_S10000x16_S400x16_1_0_0_1_n_n.rhsBatch by decide), dif_pos (show (1 : Fin S10000x16.rank) ∈ dot_S400x10000_S10000x16_S400x16_1_0_0_1_n_n.rhsNonContracting by decide)]
  rfl

/-- A 400-row block of the adjacency times the support matrix, accumulated from zero, at `(p, j)`: the sum over the 10000 nodes `k` of `a[p, k] · s[k, j]`. -/
theorem matmul_as_apply (a : FVec Ideal S400x10000 .f32) (s : FVec Ideal S10000x16 .f32) (p : Fin 400) (j : Fin 16) :
    matmul dot_S400x10000_S10000x16_S400x16_1_0_0_1_n_n none a s (constant (F := Ideal) S400x16 .f32 0x00000000#32) (ix2 p j)
      = ∑ k : Fin 10000, a (ix2 p k) * s (ix2 k j) := by
  refine (Ideal.matmul_constant_zero_apply dot_S400x10000_S10000x16_S400x16_1_0_0_1_n_n none a s (ix2 p j)).trans ?_
  rw [← Equiv.sum_comp (contrEquiv1 dot_S400x10000_S10000x16_S400x16_1_0_0_1_n_n 10000 rfl rfl).symm]
  refine Finset.sum_congr rfl fun k _ => ?_
  have hk := contrEquiv1_symm_val dot_S400x10000_S10000x16_S400x16_1_0_0_1_n_n 10000 rfl rfl k
  have el : dot_S400x10000_S10000x16_S400x16_1_0_0_1_n_n.lhsIdx (ix2 p j) ((contrEquiv1 dot_S400x10000_S10000x16_S400x16_1_0_0_1_n_n 10000 rfl rfl).symm k) = ix2 p k :=
    funext fun ax => Fin.ext (by
      match ax with
      | ⟨0, _⟩ => exact as_lhs0 _ _
      | ⟨1, _⟩ => exact (as_lhs1 _ _).trans hk)
  have er : dot_S400x10000_S10000x16_S400x16_1_0_0_1_n_n.rhsIdx (ix2 p j) ((contrEquiv1 dot_S400x10000_S10000x16_S400x16_1_0_0_1_n_n 10000 rfl rfl).symm k) = ix2 k j :=
    funext fun ax => Fin.ext (by
      match ax with
      | ⟨0, _⟩ => exact (as_rhs0 _ _).trans hk
      | ⟨1, _⟩ => exact as_rhs1 _ _)
  rw [el, er]

/-- The bias, made a one-row matrix and repeated over the 400 rows, reads at `(p, j)` the bias entry `j`: the cast
    keeps the row-major position, and the repeat reads its operand's single row. -/
theorem bias_apply (b : Vec Ideal S16 .f32) (p : Fin 400) (j : Fin 16) :
    broadcastTo S400x16 (shapeCast S1x16 b shapeCasts_S16_S1x16) broadcasts_S1x16_S400x16 (ix2 p j) = b (ix1 j) := by
  refine (broadcastTo_1b_ab_apply (shapeCast S1x16 b shapeCasts_S16_S1x16) broadcasts_S1x16_S400x16 p j).trans ?_
  refine shapeCast_apply b shapeCasts_S16_S1x16 (ix2 (0 : Fin 1) j) (ix1 j) ?_
  rw [Shape.rowMajor_val_two, Shape.rowMajor_val_one]
  show j.val = 0 * 16 + j.val
  omega

/-- A vector of 400 row values, made a column and repeated over the 16 columns, reads at `(p, j)` the value of row `p`. -/
theorem column_apply (r : FVec Ideal S400 .f32) (p : Fin 400) (j : Fin 16) :
    broadcastTo S400x16 (shapeCast S400x1 r shapeCasts_S400_S400x1) broadcasts_S400x1_S400x16 (ix2 p j) = r (ix1 p) :=
  (Cert.Lib.ColumnLayout.broadcastTo_a1_ab_apply (shapeCast S400x1 r shapeCasts_S400_S400x1) broadcasts_S400x1_S400x16 p j).trans
    (Cert.Lib.ColumnLayout.shapeCast_a_a1_apply r shapeCasts_S400_S400x1 p (0 : Fin 1))

/-- The same column with the logarithm taken entrywise before the repeat: at `(p, j)` it is the logarithm of the value of row `p`. -/
theorem logColumn_apply (r : FVec Ideal S400 .f32) (p : Fin 400) (j : Fin 16) :
    broadcastTo S400x16 (log (shapeCast S400x1 r shapeCasts_S400_S400x1)) broadcasts_S400x1_S400x16 (ix2 p j) = Ideal.log (r (ix1 p)) :=
  (Cert.Lib.ColumnLayout.broadcastTo_a1_ab_apply (log (shapeCast S400x1 r shapeCasts_S400_S400x1)) broadcasts_S400x1_S400x16 p j).trans
    (congrArg Ideal.log (Cert.Lib.ColumnLayout.shapeCast_a_a1_apply r shapeCasts_S400_S400x1 p (0 : Fin 1)))

/-- The maximum along each row of a `[400, 16]` block, started from minus infinity, read at row `p`: the fold of `max` over the row. -/
theorem rowMax_apply (h : FVec Ideal S400x16 .f32) (p : Fin 400) :
    multiReduction (F := Ideal) .maximumf [1] S400 h 0xFF800000#32 reduces_S400x16_S400 (.inl rfl) rfl (ix1 p)
      = (Finset.univ : Finset (Fin 16)).fold max (Ideal.ofBits .f32 0xFF800000#32) fun q => h (ix2 p q) :=
  Cert.Lib.MaxLayout.max_axis1_apply h 0xFF800000#32 reduces_S400x16_S400 (.inl rfl) rfl p

/-- The sum along each row of a `[400, 16]` block, started from zero, read at row `p`: the sum over the row. -/
theorem rowSum_apply (e : FVec Ideal S400x16 .f32) (p : Fin 400) :
    multiReduction (F := Ideal) .add [1] S400 e 0x00000000#32 reduces_S400x16_S400 (.inl rfl) rfl (ix1 p)
      = ∑ q : Fin 16, e (ix2 p q) :=
  Cert.Lib.ReduceLayout.sum_axis1_apply e 0x00000000#32 reduces_S400x16_S400 (.inl rfl) rfl p

/-- The activations of a row block: the adjacency block times the support, plus the bias on every row, and the larger of
    that and zero, entry by entry. -/
def actBlock (a : FVec Ideal S400x10000 .f32) (s : FVec Ideal S10000x16 .f32) (b : FVec Ideal S16 .f32) : FVec Ideal S400x16 .f32 :=
  maximumf
    (addf (matmul dot_S400x10000_S10000x16_S400x16_1_0_0_1_n_n none a s (constant (F := Ideal) S400x16 .f32 0x00000000#32))
      (broadcastTo S400x16 (shapeCast S1x16 b shapeCasts_S16_S1x16) broadcasts_S1x16_S400x16))
    (broadcast S400x16 (Scalar.ofBits (F := Ideal) .f32 0x00000000#32))

/-- Entry `(p, q)` of the activations is the specification's activation of row `p` of the adjacency block at column `q`. -/
theorem actBlock_apply (a : FVec Ideal S400x10000 .f32) (s : FVec Ideal S10000x16 .f32) (b : FVec Ideal S16 .f32)
    (p : Fin 400) (q : Fin 16) :
    actBlock a s b (ix2 p q) = Cert.Spec.act (fun k c => s (ix2 k c)) b (fun k => a (ix2 p k)) q := by
  unfold actBlock
  refine (maximumf_apply _ _ _).trans ?_
  refine congrArg (fun t => max t Cert.Spec.zero) ?_
  refine (addf_apply _ _ _).trans ?_
  exact congrArg₂ (fun u v : EReal => u + v) (matmul_as_apply a s p q) (bias_apply b p q)

/-- A block with each row's largest entry subtracted from that row. -/
def shifted (h : FVec Ideal S400x16 .f32) : FVec Ideal S400x16 .f32 :=
  subf h (broadcastTo S400x16
    (shapeCast S400x1 (multiReduction (F := Ideal) .maximumf [1] S400 h 0xFF800000#32 reduces_S400x16_S400 (.inl rfl) rfl) shapeCasts_S400_S400x1)
    broadcasts_S400x1_S400x16)

/-- Entry `(p, q)` of the shifted block is the entry minus the largest entry of row `p`. -/
theorem shifted_apply (h : FVec Ideal S400x16 .f32) (p : Fin 400) (q : Fin 16) :
    shifted h (ix2 p q) = h (ix2 p q) - Cert.Spec.rowMax (fun c => h (ix2 p c)) := by
  unfold shifted
  refine (subf_apply _ _ _).trans ?_
  exact congrArg (fun m : EReal => h (ix2 p q) - m) ((column_apply _ p q).trans (rowMax_apply h p))

/-- The shifted log-softmax along the rows of a block: the shifted block minus, on every row, the logarithm of the sum of
    the exponentials of that row's shifted entries. -/
def logSoftmaxBlock (h : FVec Ideal S400x16 .f32) : FVec Ideal S400x16 .f32 :=
  subf (shifted h) (broadcastTo S400x16
    (log (shapeCast S400x1 (multiReduction (F := Ideal) .add [1] S400 (exp (shifted h)) 0x00000000#32 reduces_S400x16_S400 (.inl rfl) rfl) shapeCasts_S400_S400x1))
    broadcasts_S400x1_S400x16)

/-- Entry `(p, j)` of the block's log-softmax is the specification's log-softmax of row `p`, at `j`. -/
theorem logSoftmaxBlock_apply (h : FVec Ideal S400x16 .f32) (p : Fin 400) (j : Fin 16) :
    logSoftmaxBlock h (ix2 p j) = Cert.Spec.logSoftmax (fun c => h (ix2 p c)) j := by
  unfold logSoftmaxBlock
  refine (subf_apply _ _ _).trans ?_
  exact congrArg₂ (fun u v : EReal => u - v) (shifted_apply h p j)
    ((logColumn_apply _ p j).trans (congrArg Ideal.log ((rowSum_apply _ p).trans
      (Finset.sum_congr rfl fun q _ => congrArg Ideal.exp (shifted_apply h p q)))))

/-- The stored block is the log-softmax of the activations: the same operations in the same order. -/
theorem pay2_eq (a : Vec Ideal S400x10000 .f32) (s : Vec Ideal S10000x16 .f32) (b : Vec Ideal S16 .f32) :
    k0_pay2 (F := Ideal) a s b = logSoftmaxBlock (actBlock a s b) := rfl

/-- Entry `(k, j)` of the stored support matrix is the specification's: the cast to the same shape changes nothing. -/
theorem pay1_apply (x : Vec Ideal S10000x128 .f32) (W : Vec Ideal S128x16 .f32) (k : Fin 10000) (j : Fin 16) :
    k0_pay1 (F := Ideal) x W (ix2 k j) = Cert.Spec.support x W k j := by
  unfold k0_pay1
  refine (congrFun (shapeCast_self _ shapeCasts_S10000x16_S10000x16) (ix2 k j)).trans ?_
  exact matmul_xW_apply x W k j

/-- Entry `(p, j)` of the stored block is the log-softmax of the activations of row `p` of the adjacency block. -/
theorem pay2_apply (a : Vec Ideal S400x10000 .f32) (s : Vec Ideal S10000x16 .f32) (b : Vec Ideal S16 .f32) (p : Fin 400) (j : Fin 16) :
    k0_pay2 (F := Ideal) a s b (ix2 p j)
      = Cert.Spec.logSoftmax (Cert.Spec.act (fun k q => s (ix2 k q)) b (fun k => a (ix2 p k))) j := by
  rw [pay2_eq]
  refine (logSoftmaxBlock_apply (actBlock a s b) p j).trans ?_
  exact congrArg (fun h => Cert.Spec.logSoftmax h j) (funext fun q => actBlock_apply a s b p q)

end Cert.KernelIdeal.Payload

end
-- ==== Proof.BlockReads.lean ====
/-
  The four input blocks the kernel's body reads at a grid point, entry by entry, as entries of the launched arrays.

  The grid has 25 points.  Three of the inputs — the feature matrix `x`, the weights `W` and the bias `b` — are staged
  whole at every point: the block index of each is zero on every axis, so an entry of the block is the entry of the array
  at the same coordinates.  The adjacency is staged in blocks of 400 rows: at point `t` the block index is `(t, 0)` and the
  block has all 10000 columns, so entry `(p, k)` of the block is entry `(400 t + p, k)` of the array.  In every case a
  coordinate of the array is the block index times the block's extent plus the coordinate inside the block; the block
  indices are decided once over the 25 points.  Nothing here depends on the arithmetic of the entries: the statements hold
  for every interpretation of the floats.
-/
import proofs.«181991_g8967891714351_rerun558fix_450_27_alg».proof.Proof.Gen.KernelIdeal.Frame
import Idealize.ShloMosaic.Lib.Pipeline.Value
import Idealize.ShloMosaic.Lib.ValueIdx

noncomputable section

namespace Cert.KernelIdeal.BlockReads

open Cert.KernelIdeal Cert.KernelIdeal.Gen Idealize.ShloMosaic Idealize.ShloMosaic.TcCoe Idealize.ShloMosaic.ValueIdx

variable {F : FTy → Type} [FloatOps F]
variable (m : (ℓ : Loc nD τ sig) → Buf (Elt F) ℓ)

/-- The feature matrix's window takes the whole array at every grid point: its block index is `(0, 0)` throughout. -/
theorem index_x : ∀ t : Fin grid0.N, win0_0.index t 0 = 0 ∧ win0_0.index t 1 = 0 := by decide +kernel
/-- The weights' window likewise takes the whole array at every grid point. -/
theorem index_w : ∀ t : Fin grid0.N, win0_1.index t 0 = 0 ∧ win0_1.index t 1 = 0 := by decide +kernel
/-- The bias' window likewise: block index `0` at every grid point. -/
theorem index_b : ∀ t : Fin grid0.N, win0_2.index t 0 = 0 := by decide +kernel
/-- The adjacency's window at grid point `t` takes block `t` along the rows and block `0` along the columns. -/
theorem index_adj : ∀ t : Fin grid0.N, win0_3.index t 0 = t.val ∧ win0_3.index t 1 = 0 := by decide +kernel

/-- The block of the feature matrix at any grid point is the whole array: entry `(k, l)` of the block is entry `(k, l)` of
    the array, since `0 · 10000 + k = k` and `0 · 128 + l = l`. -/
theorem x_block (c : Dev nD) (t : Fin cfg0.N) (k : Fin 10000) (l : Fin 128) :
    (iblk m c 0 t : Vec F S10000x128 .f32) (ix2 k l)
      = (m ((c : Thread nD τ).loc main_arg0) : S10000x128.Idx → Elt F .f32) (ix2 k l) := by
  have hi := index_x t
  unfold iblk
  rw [View.read_apply]
  show V m c main_arg0 _ = m (c.tc.loc main_arg0) _
  unfold V
  refine congrArg (m (c.tc.loc main_arg0)) (funext fun ax => Fin.ext ?_)
  match ax with
  | ⟨0, _⟩ => show win0_0.index t 0 * 10000 + 1 * k.val = k.val; rw [hi.1]; omega
  | ⟨1, _⟩ => show win0_0.index t 1 * 128 + 1 * l.val = l.val; rw [hi.2]; omega

/-- The block of the weights at any grid point is the whole array: entry `(l, j)` of the block is entry `(l, j)` of the
    array, since `0 · 128 + l = l` and `0 · 16 + j = j`. -/
theorem w_block (c : Dev nD) (t : Fin cfg0.N) (l : Fin 128) (j : Fin 16) :
    (iblk m c 1 t : Vec F S128x16 .f32) (ix2 l j)
      = (m ((c : Thread nD τ).loc main_arg2) : S128x16.Idx → Elt F .f32) (ix2 l j) := by
  have hi := index_w t
  unfold iblk
  rw [View.read_apply]
  show V m c main_arg2 _ = m (c.tc.loc main_arg2) _
  unfold V
  refine congrArg (m (c.tc.loc main_arg2)) (funext fun ax => Fin.ext ?_)
  match ax with
  | ⟨0, _⟩ => show win0_1.index t 0 * 128 + 1 * l.val = l.val; rw [hi.1]; omega
  | ⟨1, _⟩ => show win0_1.index t 1 * 16 + 1 * j.val = j.val; rw [hi.2]; omega

/-- The block of the bias at any grid point is the whole vector: entry `j` of the block is entry `j` of the array, since
    `0 · 16 + j = j`. -/
theorem b_block (c : Dev nD) (t : Fin cfg0.N) (j : Fin 16) :
    (iblk m c 2 t : Vec F S16 .f32) (ix1 j)
      = (m ((c : Thread nD τ).loc main_arg3) : S16.Idx → Elt F .f32) (ix1 j) := by
  have hi := index_b t
  unfold iblk
  rw [View.read_apply]
  show V m c main_arg3 _ = m (c.tc.loc main_arg3) _
  unfold V
  refine congrArg (m (c.tc.loc main_arg3)) (funext fun ax => Fin.ext ?_)
  match ax with
  | ⟨0, _⟩ => show win0_2.index t 0 * 16 + 1 * j.val = j.val; rw [hi]; omega

/-- The block of the adjacency at grid point `t` is rows `400 t … 400 t + 399`, all columns: entry `(p, k)` of the block is
    entry `(400 t + p, k)` of the array, since the row coordinate is `t · 400 + p` and the column coordinate `0 · 10000 + k`. -/
theorem adj_block (c : Dev nD) (t : Fin cfg0.N) (p : Fin 400) (k : Fin 10000) (r : Fin 10000) (hr : r.val = 400 * t.val + p.val) :
    (iblk m c 3 t : Vec F S400x10000 .f32) (ix2 p k)
      = (m ((c : Thread nD τ).loc main_arg1) : S10000x10000.Idx → Elt F .f32) (ix2 r k) := by
  have hi := index_adj t
  unfold iblk
  rw [View.read_apply]
  show V m c main_arg1 _ = m (c.tc.loc main_arg1) _
  unfold V
  refine congrArg (m (c.tc.loc main_arg1)) (funext fun ax => Fin.ext ?_)
  match ax with
  | ⟨0, _⟩ => show win0_3.index t 0 * 400 + 1 * p.val = r.val; rw [hi.1, hr]; omega
  | ⟨1, _⟩ => show win0_3.index t 1 * 10000 + 1 * k.val = k.val; rw [hi.2]; omega

end Cert.KernelIdeal.BlockReads

end
-- ==== Proof.OutputValue.lean ====
/-
  The output array is the specification's result, over the extended reals.

  The output's buffer is handed from grid point to grid point; point `t` overwrites rows `400 t … 400 t + 399` of it, all
  16 columns, with the block of the result it computes, and leaves every other row as it found it.  So after `n` points
  the first `400 n` rows hold the specification's entries: before the first point nothing is claimed; at point `t` a row
  below `400 t` lies outside the slab and keeps the entry it had, and a row `400 t + p` lies inside and receives the
  log-softmax of the activations of row `p` of the point's adjacency block.  That block's row `p` is row `400 t + p` of the
  adjacency, the kept product is `x · W` entry by entry, and the bias block is the bias, so the stored entry is the
  specification's entry of row `400 t + p`.  After the 25 points all 10000 rows are done, and what is written back is the
  whole result.
-/
import proofs.«181991_g8967891714351_rerun558fix_450_27_alg».proof.Proof.OutputArray
import proofs.«181991_g8967891714351_rerun558fix_450_27_alg».proof.Proof.Payload
import proofs.«181991_g8967891714351_rerun558fix_450_27_alg».proof.Proof.BlockReads
import proofs.«181991_g8967891714351_rerun558fix_450_27_alg».proof.Proof.Spec
import Idealize.ShloMosaic.Lib.WritesUnit
import Idealize.ShloMosaic.Lib.ValueIdx

noncomputable section

namespace Cert.KernelIdeal.OutValue

open Cert.KernelIdeal Cert.KernelIdeal.Gen Cert.KernelIdeal.Hand Idealize.ShloMosaic Idealize.ShloMosaic.TcCoe Idealize.ShloMosaic.ValueIdx

/-- Reading the output's buffer after one point's store, inside the slab: the slab being rows `o … o + 399`, all 16 columns,
    row `o + p` at column `j` holds the stored block's entry `(p, j)`. -/
theorem slab_read_mem {F : FTy → Type} [FloatOps F] (v : Memref sig .tc .vmem S10000x16 .f32) (hv : v.IsWhole)
    (i : grid0.Coords) (o : ℕ) (ho : k0_off1 i = ![o, 0]) (Y : Vec F S10000x16 .f32) (pay : Vec F S400x16 .f32)
    (r : Fin 10000) (j : Fin 16) (p : Fin 400) (hr : r.val = o + p.val) :
    v.view.read (Elt F) (v.view.writes (Elt F) (hv.unread Y) [⟨slab i, pay⟩]) (ix2 r j) = pay (ix2 p j) :=
  View.read_writes_cons_rows_of_mem v.view (hv.unread Y) (k0_off1_inb i) pay [] (ix2 r j) (ix2 p j) ho hr rfl

/-- Outside the slab: a row below `o` or from `o + 400` on holds what the buffer held before the store. -/
theorem slab_read_not_mem {F : FTy → Type} [FloatOps F] (v : Memref sig .tc .vmem S10000x16 .f32) (hv : v.IsWhole)
    (i : grid0.Coords) (o : ℕ) (ho : k0_off1 i = ![o, 0]) (Y : Vec F S10000x16 .f32) (pay : Vec F S400x16 .f32)
    (r : Fin 10000) (j : Fin 16) (h : r.val < o ∨ o + 400 ≤ r.val) :
    v.view.read (Elt F) (v.view.writes (Elt F) (hv.unread Y) [⟨slab i, pay⟩]) (ix2 r j) = Y (ix2 r j) :=
  (View.read_writes_cons_rows_of_not_mem v.view (hv.unread Y) (k0_off1_inb i) pay [] (ix2 r j) ho
      (rfl : S400x16.size (0 : Fin 2) = 400) h).trans
    (congrFun (hv.read_unread Y) (ix2 r j))

/-- The activations of a row depend on the support, the bias and the adjacency row only through their entries. -/
theorem act_congr {s s' : Fin 10000 → Fin 16 → EReal} {b b' : (⟨1, ![16]⟩ : Shape).Idx → EReal} {a a' : Fin 10000 → EReal}
    (hs : ∀ k q, s k q = s' k q) (hb : ∀ q, b (ix1 q) = b' (ix1 q)) (ha : ∀ k, a k = a' k) (q : Fin 16) :
    Cert.Spec.act s b a q = Cert.Spec.act s' b' a' q := by
  unfold Cert.Spec.act
  rw [hb q]
  refine congrArg (fun u : EReal => max (u + b' (ix1 q)) Cert.Spec.zero) ?_
  exact Finset.sum_congr rfl fun k _ => by rw [ha k, hs k q]

variable (m : (ℓ : Loc nD τ sig) → Buf (Elt Ideal) ℓ) (c : Dev nD)

/-- The four argument arrays as launched: features, adjacency, weights, bias. -/
abbrev xArr : Vec Ideal S10000x128 .f32 := m ((c : Thread nD τ).loc main_arg0)
abbrev adjArr : Vec Ideal S10000x10000 .f32 := m ((c : Thread nD τ).loc main_arg1)
abbrev wArr : Vec Ideal S128x16 .f32 := m ((c : Thread nD τ).loc main_arg2)
abbrev bArr : Vec Ideal S16 .f32 := m ((c : Thread nD τ).loc main_arg3)

/-- The product kept from the first point on is the specification's support matrix, entry by entry: the first point's
    blocks of the features and of the weights are the whole arrays. -/
theorem sup_apply (k : Fin 10000) (q : Fin 16) :
    sup m c (ix2 k q) = Cert.Spec.support (xArr m c) (wArr m c) k q := by
  unfold sup
  refine (Payload.pay1_apply (iblk m c 0 t₀) (iblk m c 1 t₀) k q).trans ?_
  unfold Cert.Spec.support
  exact Finset.sum_congr rfl fun l _ =>
    congrArg₂ (fun u v : EReal => u * v) (BlockReads.x_block m c t₀ k l) (BlockReads.w_block m c t₀ l q)

/-- The first `400 n` rows of a buffer hold the specification's entries. -/
def rowsDone (n : ℕ) (X : Vec Ideal S10000x16 .f32) : Prop :=
  ∀ (r : Fin 10000) (j : Fin 16), r.val < 400 * n → X (ix2 r j) = Cert.Spec.entry (xArr m c) (adjArr m c) (wArr m c) (bArr m c) r j

/-- Before the first point no row is claimed. -/
theorem rows_zero (Y : Vec Ideal S10000x16 .f32) : rowsDone m c 0 Y := fun r _ h => absurd h (by omega)

/-- One point carries the claim 400 rows further: rows below its slab keep their entries, and row `400 t + p` of its slab
    receives the specification's entry of that row. -/
theorem rows_step (t : Fin cfg0.N) (Y X : Vec Ideal S10000x16 .f32) (hY : rowsDone m c t.val Y) (hR : slabRel m c t Y X) :
    rowsDone m c (t.val + 1) X := by
  intro r j hr
  have hN : cfg0.N = 25 := N_0
  have ht := t.isLt
  unfold slabRel at hR
  subst hR
  by_cases hlt : r.val < 400 * t.val
  · exact (slab_read_not_mem (ms0_4 t) (hs0_4 t) (grid0.coords t) (400 * t.val) (slab_off t) Y _ r j (Or.inl hlt)).trans (hY r j hlt)
  · have hp : r.val - 400 * t.val < 400 := by omega
    have hrp : r.val = 400 * t.val + (r.val - 400 * t.val) := by omega
    refine (slab_read_mem (ms0_4 t) (hs0_4 t) (grid0.coords t) (400 * t.val) (slab_off t) Y _ r j ⟨r.val - 400 * t.val, hp⟩ hrp).trans ?_
    refine (Payload.pay2_apply (iblk m c 3 t) (sup m c) (iblk m c 2 t) ⟨r.val - 400 * t.val, hp⟩ j).trans ?_
    unfold Cert.Spec.entry
    exact congrArg (fun h => Cert.Spec.logSoftmax h j) (funext fun q =>
      act_congr (fun k q' => sup_apply m c k q') (fun q' => BlockReads.b_block m c t q')
        (fun k => BlockReads.adj_block m c t ⟨r.val - 400 * t.val, hp⟩ k r hrp) q)

/-- Whatever the output array may hold after all write-backs is the specification's result. -/
theorem out_is_spec (G : Buf (Elt Ideal) ((cfg0.win 4).arr.view.loc (c.tc : Thread nD τ))) (h : (rd m c).ArrAt 4 cfg0.N G) :
    G = Cert.Spec.result (xArr m c) (adjArr m c) (wArr m c) (bArr m c) := by
  obtain ⟨X, hX, rfl⟩ := arrAt_out m c (rowsDone m c) (rows_zero m c) (rows_step m c) G h
  funext i
  obtain ⟨r, j, rfl⟩ : ∃ (r : Fin 10000) (j : Fin 16), i = ix2 r j := ⟨i 0, i 1, eq_ix2 i⟩
  rw [Cert.Spec.result_ix2]
  exact hX r j (by have := r.isLt; omega)

end Cert.KernelIdeal.OutValue

end
-- ==== Proof.LibTypedRef.lean ====
/-
  A typed reference carries a proof that its buffer's type is the tensor value's type, and moves contents between the
  two types along that proof.  Moving a value to the buffer's type and back gives the value again: the two moves are
  transports along an equation and its inverse.  General in the signature, the type and the values.
-/
import Idealize.ShloMosaic.Lib.StableHlo

namespace Cert.Lib.TypedRef

open Idealize.ShloMosaic Idealize.ShloMosaic.StableHlo

/-- Contents moved to the buffer's own type and back are unchanged. -/
theorem ofBuf_toBuf {sig : RefSig} {T : BufTy} {Val : EltTy → Type} (x : TRef sig T) (v : T.Contents Val) :
    x.ofBuf (x.toBuf v) = v := by
  obtain ⟨r, h, _, _⟩ := x
  subst h
  rfl

end Cert.Lib.TypedRef
-- ==== Proof.RefRun.lean ====
/-
  The reference program's run, read back: its @main is a straight line of 23 host operations (the two module-local
  functions it calls, the rectifier and the log-softmax, stand inline at their call sites), so every weakly fair
  execution terminates with the result buffer at the operations' composed term of the four argument arrays, and the
  arguments unchanged.  A called function's operations move contents through typed references; moving a value to a
  buffer's type and back is the identity, which is what lets the composed term be stated without those moves.
-/
import proofs.«181991_g8967891714351_rerun558fix_450_27_alg».proof.Proof.Gen.ReferenceIdeal
import proofs.«181991_g8967891714351_rerun558fix_450_27_alg».proof.Proof.LibTypedRef
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The result as one term of the four arguments: the log-softmax, in its shifted form, of the rectified
    `adj · (x · W) + b`. -/
def term (x0 : (⟨S10000x128, .f32⟩ : BufTy).Contents (Elt F)) (x1 : (⟨S10000x10000, .f32⟩ : BufTy).Contents (Elt F))
    (x2 : (⟨S128x16, .f32⟩ : BufTy).Contents (Elt F)) (x3 : (⟨S16, .f32⟩ : BufTy).Contents (Elt F)) :
    (⟨S10000x16, .f32⟩ : BufTy).Contents (Elt F) :=
  subf (subf (maximumf (addf (Host.dotGeneral dot_S10000x10000_S10000x16_S10000x16_1_0_0_1_n_n none x1 (Host.dotGeneral dot_S10000x128_S128x16_S10000x16_1_0_0_1_n_n none x0 x2)) (broadcastInDim S10000x16 ![0, 1] bcast_S1x16_S10000x16_0_1 (broadcastInDim S1x16 ![1] bcast_S16_S1x16_1 x3))) (broadcastInDim S10000x16 ![] bcast_S_S10000x16 (constant S_ .f32 0x00000000#32))) (broadcastInDim S10000x16 ![0, 1] bcast_S10000x1_S10000x16_0_1 (broadcastInDim S10000x1 ![0] bcast_S10000_S10000x1_0 (maximumf (broadcastInDim S10000 ![] bcast_S_S10000 (constant S_ .f32 0xFF800000#32)) (Host.reduce FloatOps.maximumf (maximumf (addf (Host.dotGeneral dot_S10000x10000_S10000x16_S10000x16_1_0_0_1_n_n none x1 (Host.dotGeneral dot_S10000x128_S128x16_S10000x16_1_0_0_1_n_n none x0 x2)) (broadcastInDim S10000x16 ![0, 1] bcast_S1x16_S10000x16_0_1 (broadcastInDim S1x16 ![1] bcast_S16_S1x16_1 x3))) (broadcastInDim S10000x16 ![] bcast_S_S10000x16 (constant S_ .f32 0x00000000#32))) (constant S_ .f32 0xFF800000#32) reducesTo_S10000x16_S10000_d1 h_S_))))) (broadcastInDim S10000x16 ![0, 1] bcast_S10000x1_S10000x16_0_1 (Host.log (broadcastInDim S10000x1 ![0] bcast_S10000_S10000x1_0 (Host.reduceAdd (Host.exp (subf (maximumf (addf (Host.dotGeneral dot_S10000x10000_S10000x16_S10000x16_1_0_0_1_n_n none x1 (Host.dotGeneral dot_S10000x128_S128x16_S10000x16_1_0_0_1_n_n none x0 x2)) (broadcastInDim S10000x16 ![0, 1] bcast_S1x16_S10000x16_0_1 (broadcastInDim S1x16 ![1] bcast_S16_S1x16_1 x3))) (broadcastInDim S10000x16 ![] bcast_S_S10000x16 (constant S_ .f32 0x00000000#32))) (broadcastInDim S10000x16 ![0, 1] bcast_S10000x1_S10000x16_0_1 (broadcastInDim S10000x1 ![0] bcast_S10000_S10000x1_0 (maximumf (broadcastInDim S10000 ![] bcast_S_S10000 (constant S_ .f32 0xFF800000#32)) (Host.reduce FloatOps.maximumf (maximumf (addf (Host.dotGeneral dot_S10000x10000_S10000x16_S10000x16_1_0_0_1_n_n none x1 (Host.dotGeneral dot_S10000x128_S128x16_S10000x16_1_0_0_1_n_n none x0 x2)) (broadcastInDim S10000x16 ![0, 1] bcast_S1x16_S10000x16_0_1 (broadcastInDim S1x16 ![1] bcast_S16_S1x16_1 x3))) (broadcastInDim S10000x16 ![] bcast_S_S10000x16 (constant S_ .f32 0x00000000#32))) (constant S_ .f32 0xFF800000#32) reducesTo_S10000x16_S10000_d1 h_S_)))))) (constant S_ .f32 0x00000000#32) reducesTo_S10000x16_S10000_d1 h_S_))))

/-- @main's operations, in order. -/
abbrev ops : List (HloOp τ sig (Elt F)) :=
  [ binary main_arg0 main_arg2 main_v0 ((fun l r => Host.dotGeneral dot_S10000x128_S128x16_S10000x16_1_0_0_1_n_n none l r) : (⟨S10000x128, .f32⟩ : BufTy).Contents (Elt F) → (⟨S128x16, .f32⟩ : BufTy).Contents (Elt F) → (⟨S10000x16, .f32⟩ : BufTy).Contents (Elt F)),
    binary main_arg1 main_v0 main_v1 ((fun l r => Host.dotGeneral dot_S10000x10000_S10000x16_S10000x16_1_0_0_1_n_n none l r) : (⟨S10000x10000, .f32⟩ : BufTy).Contents (Elt F) → (⟨S10000x16, .f32⟩ : BufTy).Contents (Elt F) → (⟨S10000x16, .f32⟩ : BufTy).Contents (Elt F)),
    unary main_arg3 main_v2 (broadcastInDim S1x16 ![1] bcast_S16_S1x16_1 : (⟨S16, .f32⟩ : BufTy).Contents (Elt F) → (⟨S1x16, .f32⟩ : BufTy).Contents (Elt F)),
    unary main_v2 main_v3 (broadcastInDim S10000x16 ![0, 1] bcast_S1x16_S10000x16_0_1 : (⟨S1x16, .f32⟩ : BufTy).Contents (Elt F) → (⟨S10000x16, .f32⟩ : BufTy).Contents (Elt F)),
    binary main_v1 main_v3 main_v4 (addf : (⟨S10000x16, .f32⟩ : BufTy).Contents (Elt F) → (⟨S10000x16, .f32⟩ : BufTy).Contents (Elt F) → (⟨S10000x16, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S10000x16, .f32⟩) main_call0_v0) (broadcastInDim S10000x16 ![] bcast_S_S10000x16),
    TRef.binary (TRef.of (T := ⟨S10000x16, .f32⟩) main_v4) (TRef.of (T := ⟨S10000x16, .f32⟩) main_call0_v0) (TRef.of (T := ⟨S10000x16, .f32⟩) main_v5) maximumf,
    TRef.nullary (TRef.of (T := ⟨S_, .f32⟩) main_call1_cst) (constant S_ .f32 0xFF800000#32),
    TRef.binary (TRef.of (T := ⟨S10000x16, .f32⟩) main_v5) (TRef.of (T := ⟨S_, .f32⟩) main_call1_cst) (TRef.of (T := ⟨S10000, .f32⟩) main_call1_v0) (fun x v => Host.reduce FloatOps.maximumf x v reducesTo_S10000x16_S10000_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S10000, .f32⟩) main_call1_v1) (broadcastInDim S10000 ![] bcast_S_S10000),
    TRef.binary (TRef.of (T := ⟨S10000, .f32⟩) main_call1_v1) (TRef.of (T := ⟨S10000, .f32⟩) main_call1_v0) (TRef.of (T := ⟨S10000, .f32⟩) main_call1_v2) maximumf,
    TRef.unary (TRef.of (T := ⟨S10000, .f32⟩) main_call1_v2) (TRef.of (T := ⟨S10000x1, .f32⟩) main_call1_v3) (broadcastInDim S10000x1 ![0] bcast_S10000_S10000x1_0),
    TRef.unary (TRef.of (T := ⟨S10000x1, .f32⟩) main_call1_v3) (TRef.of (T := ⟨S10000x16, .f32⟩) main_call1_v4) (broadcastInDim S10000x16 ![0, 1] bcast_S10000x1_S10000x16_0_1),
    TRef.binary (TRef.of (T := ⟨S10000x16, .f32⟩) main_v5) (TRef.of (T := ⟨S10000x16, .f32⟩) main_call1_v4) (TRef.of (T := ⟨S10000x16, .f32⟩) main_call1_v5) subf,
    TRef.unary (TRef.of (T := ⟨S10000x16, .f32⟩) main_call1_v5) (TRef.of (T := ⟨S10000x16, .f32⟩) main_call1_v6) Host.exp,
    TRef.nullary (TRef.of (T := ⟨S_, .f32⟩) main_call1_cst_1) (constant S_ .f32 0x00000000#32),
    TRef.binary (TRef.of (T := ⟨S10000x16, .f32⟩) main_call1_v6) (TRef.of (T := ⟨S_, .f32⟩) main_call1_cst_1) (TRef.of (T := ⟨S10000, .f32⟩) main_call1_v7) (fun x v => Host.reduceAdd x v reducesTo_S10000x16_S10000_d1 h_S_),
    TRef.unary (TRef.of (T := ⟨S10000, .f32⟩) main_call1_v7) (TRef.of (T := ⟨S10000x1, .f32⟩) main_call1_v8) (broadcastInDim S10000x1 ![0] bcast_S10000_S10000x1_0),
    TRef.unary (TRef.of (T := ⟨S10000x1, .f32⟩) main_call1_v8) (TRef.of (T := ⟨S10000x1, .f32⟩) main_call1_v9) Host.log,
    TRef.unary (TRef.of (T := ⟨S10000x1, .f32⟩) main_call1_v9) (TRef.of (T := ⟨S10000x16, .f32⟩) main_call1_v10) (broadcastInDim S10000x16 ![0, 1] bcast_S10000x1_S10000x16_0_1),
    TRef.binary (TRef.of (T := ⟨S10000x16, .f32⟩) main_call1_v5) (TRef.of (T := ⟨S10000x16, .f32⟩) main_call1_v10) (TRef.of (T := ⟨S10000x16, .f32⟩) main_v6) subf ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨binary_bufs_sub .., binary_bufs_sub .., unary_bufs_sub .., unary_bufs_sub .., binary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

set_option maxHeartbeats 2000000 in
/-- On every device, from any memory with zero counters: every weakly fair execution of @main terminates with the
    result at `term` of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v6) = term (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v6).trans (by
        after_results_simp
        simp only [Cert.Lib.TypedRef.ofBuf_toBuf]
        rfl),
      (h c main_arg0).trans (by after_results <;> rfl),
      (h c main_arg1).trans (by after_results <;> rfl),
      (h c main_arg2).trans (by after_results <;> rfl),
      (h c main_arg3).trans (by after_results <;> rfl)⟩)
    (run_seq scopedRefs_eq scopedSems_eq defs main (fun _ => ops) main_eq (fun _ => ops_sub) m ρ)

end Cert.ReferenceIdeal.RefRun

end
-- ==== Proof.RefStages.lean ====
import proofs.«181991_g8967891714351_rerun558fix_450_27_alg».proof.Proof.Gen.ReferenceIdeal
import proofs.«181991_g8967891714351_rerun558fix_450_27_alg».proof.Proof.Spec
import proofs.«181991_g8967891714351_rerun558fix_450_27_alg».proof.Proof.LibMaxLayout
import Idealize.ShloMosaic.Lib.Pipeline.Value
import Idealize.ShloMosaic.Lib.ValueIdx
import Idealize.ShloMosaic.Lib.ValueLayout
import Idealize.ShloMosaic.PureOps.Ideal.Laws

/-
  The reference program is the specification, entry by entry, over the extended reals.

  The reference computes, in order: the product of the features and the weights; the product of the adjacency with
  it; the bias, spread over the rows, added; the larger of that and zero; per row the largest entry (a fold of `max`
  from minus infinity, then one more `max` with minus infinity, which changes nothing because a fold of `max` is at
  least its starting value); the entries less that maximum; per row the sum of their exponentials (with a zero added in
  front); its logarithm, spread back over the row; and the difference.  The stages are defined below for any float
  values, one per array the program forms, and their composition `refTerm` is the program's result as a function of
  its four arguments.  Over the extended reals each stage is then read at an index given by its coordinates `(r, j)`
  and identified with the corresponding piece of the specification; the last stage assembles them.
-/

noncomputable section

namespace Cert.ReferenceIdeal.RefValue

open Cert.ReferenceIdeal Cert.ReferenceIdeal.Gen Idealize.ShloMosaic Idealize.ShloMosaic.ValueIdx

/-! ## The stages, for any float values -/

section Stages

variable {F : FTy → Type} [FloatOps F]

/-- The features times the weights, a [10000, 16] array. -/
def support (x0 : (⟨S10000x128, .f32⟩ : BufTy).Contents (Elt F)) (x2 : (⟨S128x16, .f32⟩ : BufTy).Contents (Elt F)) :
    (⟨S10000x16, .f32⟩ : BufTy).Contents (Elt F) :=
  Host.dotGeneral dot_S10000x128_S128x16_S10000x16_1_0_0_1_n_n none x0 x2

/-- The adjacency times the support. -/
def aggregate (x0 : (⟨S10000x128, .f32⟩ : BufTy).Contents (Elt F)) (x1 : (⟨S10000x10000, .f32⟩ : BufTy).Contents (Elt F))
    (x2 : (⟨S128x16, .f32⟩ : BufTy).Contents (Elt F)) : (⟨S10000x16, .f32⟩ : BufTy).Contents (Elt F) :=
  Host.dotGeneral dot_S10000x10000_S10000x16_S10000x16_1_0_0_1_n_n none x1 (support x0 x2)

/-- The bias as a [1, 16] row, then repeated on every one of the 10000 rows. -/
def biasRows (x3 : (⟨S16, .f32⟩ : BufTy).Contents (Elt F)) : (⟨S10000x16, .f32⟩ : BufTy).Contents (Elt F) :=
  broadcastInDim S10000x16 ![0, 1] bcast_S1x16_S10000x16_0_1 (broadcastInDim S1x16 ![1] bcast_S16_S1x16_1 x3)

/-- The zero word at every position of a [10000, 16] array. -/
def zeros : (⟨S10000x16, .f32⟩ : BufTy).Contents (Elt F) :=
  broadcastInDim S10000x16 ![] bcast_S_S10000x16 (constant S_ .f32 0x00000000#32)

/-- The activations: the larger of aggregate plus bias and zero. -/
def activations (x0 : (⟨S10000x128, .f32⟩ : BufTy).Contents (Elt F)) (x1 : (⟨S10000x10000, .f32⟩ : BufTy).Contents (Elt F))
    (x2 : (⟨S128x16, .f32⟩ : BufTy).Contents (Elt F)) (x3 : (⟨S16, .f32⟩ : BufTy).Contents (Elt F)) :
    (⟨S10000x16, .f32⟩ : BufTy).Contents (Elt F) :=
  maximumf (addf (aggregate x0 x1 x2) (biasRows x3)) zeros

/-- Per row, the largest activation: the maximum along the second axis started from the minus-infinity word, and one
    more maximum with that word on every row. -/
def rowMaxima (x0 : (⟨S10000x128, .f32⟩ : BufTy).Contents (Elt F)) (x1 : (⟨S10000x10000, .f32⟩ : BufTy).Contents (Elt F))
    (x2 : (⟨S128x16, .f32⟩ : BufTy).Contents (Elt F)) (x3 : (⟨S16, .f32⟩ : BufTy).Contents (Elt F)) :
    (⟨S10000, .f32⟩ : BufTy).Contents (Elt F) :=
  maximumf (broadcastInDim S10000 ![] bcast_S_S10000 (constant S_ .f32 0xFF800000#32))
    (Host.reduce FloatOps.maximumf (activations x0 x1 x2 x3) (constant S_ .f32 0xFF800000#32) reducesTo_S10000x16_S10000_d1 h_S_)

/-- The row maxima as a [10000, 1] column, then repeated along each row of 16. -/
def maxColumns (x0 : (⟨S10000x128, .f32⟩ : BufTy).Contents (Elt F)) (x1 : (⟨S10000x10000, .f32⟩ : BufTy).Contents (Elt F))
    (x2 : (⟨S128x16, .f32⟩ : BufTy).Contents (Elt F)) (x3 : (⟨S16, .f32⟩ : BufTy).Contents (Elt F)) :
    (⟨S10000x16, .f32⟩ : BufTy).Contents (Elt F) :=
  broadcastInDim S10000x16 ![0, 1] bcast_S10000x1_S10000x16_0_1
    (broadcastInDim S10000x1 ![0] bcast_S10000_S10000x1_0 (rowMaxima x0 x1 x2 x3))

/-- The activations less their row's maximum. -/
def shifted (x0 : (⟨S10000x128, .f32⟩ : BufTy).Contents (Elt F)) (x1 : (⟨S10000x10000, .f32⟩ : BufTy).Contents (Elt F))
    (x2 : (⟨S128x16, .f32⟩ : BufTy).Contents (Elt F)) (x3 : (⟨S16, .f32⟩ : BufTy).Contents (Elt F)) :
    (⟨S10000x16, .f32⟩ : BufTy).Contents (Elt F) :=
  subf (activations x0 x1 x2 x3) (maxColumns x0 x1 x2 x3)

/-- Per row, the sum of the exponentials of the shifted activations, started from the zero word. -/
def expSums (x0 : (⟨S10000x128, .f32⟩ : BufTy).Contents (Elt F)) (x1 : (⟨S10000x10000, .f32⟩ : BufTy).Contents (Elt F))
    (x2 : (⟨S128x16, .f32⟩ : BufTy).Contents (Elt F)) (x3 : (⟨S16, .f32⟩ : BufTy).Contents (Elt F)) :
    (⟨S10000, .f32⟩ : BufTy).Contents (Elt F) :=
  Host.reduceAdd (Host.exp (shifted x0 x1 x2 x3)) (constant S_ .f32 0x00000000#32) reducesTo_S10000x16_S10000_d1 h_S_

/-- The logarithm of the row sums as a [10000, 1] column, repeated along each row of 16. -/
def logColumns (x0 : (⟨S10000x128, .f32⟩ : BufTy).Contents (Elt F)) (x1 : (⟨S10000x10000, .f32⟩ : BufTy).Contents (Elt F))
    (x2 : (⟨S128x16, .f32⟩ : BufTy).Contents (Elt F)) (x3 : (⟨S16, .f32⟩ : BufTy).Contents (Elt F)) :
    (⟨S10000x16, .f32⟩ : BufTy).Contents (Elt F) :=
  broadcastInDim S10000x16 ![0, 1] bcast_S10000x1_S10000x16_0_1
    (Host.log (broadcastInDim S10000x1 ![0] bcast_S10000_S10000x1_0 (expSums x0 x1 x2 x3)))

/-- The program's result as a function of its four arguments: the shifted activations less the logarithm of their
    row's sum of exponentials. -/
def refTerm (x0 : (⟨S10000x128, .f32⟩ : BufTy).Contents (Elt F)) (x1 : (⟨S10000x10000, .f32⟩ : BufTy).Contents (Elt F))
    (x2 : (⟨S128x16, .f32⟩ : BufTy).Contents (Elt F)) (x3 : (⟨S16, .f32⟩ : BufTy).Contents (Elt F)) :
    (⟨S10000x16, .f32⟩ : BufTy).Contents (Elt F) :=
  subf (shifted x0 x1 x2 x3) (logColumns x0 x1 x2 x3)

/-- The composition written out in full, one operation inside the other, is `refTerm`: the stages only name its
    repeated parts. -/
theorem refTerm_eq (x0 : (⟨S10000x128, .f32⟩ : BufTy).Contents (Elt F)) (x1 : (⟨S10000x10000, .f32⟩ : BufTy).Contents (Elt F))
    (x2 : (⟨S128x16, .f32⟩ : BufTy).Contents (Elt F)) (x3 : (⟨S16, .f32⟩ : BufTy).Contents (Elt F)) :
    subf (subf (maximumf (addf (Host.dotGeneral dot_S10000x10000_S10000x16_S10000x16_1_0_0_1_n_n none (x1) (Host.dotGeneral dot_S10000x128_S128x16_S10000x16_1_0_0_1_n_n none (x0) (x2))) (broadcastInDim S10000x16 ![0, 1] bcast_S1x16_S10000x16_0_1 (broadcastInDim S1x16 ![1] bcast_S16_S1x16_1 (x3)))) (broadcastInDim S10000x16 ![] bcast_S_S10000x16 (constant S_ .f32 0x00000000#32))) (broadcastInDim S10000x16 ![0, 1] bcast_S10000x1_S10000x16_0_1 (broadcastInDim S10000x1 ![0] bcast_S10000_S10000x1_0 (maximumf (broadcastInDim S10000 ![] bcast_S_S10000 (constant S_ .f32 0xFF800000#32)) (Host.reduce FloatOps.maximumf (maximumf (addf (Host.dotGeneral dot_S10000x10000_S10000x16_S10000x16_1_0_0_1_n_n none (x1) (Host.dotGeneral dot_S10000x128_S128x16_S10000x16_1_0_0_1_n_n none (x0) (x2))) (broadcastInDim S10000x16 ![0, 1] bcast_S1x16_S10000x16_0_1 (broadcastInDim S1x16 ![1] bcast_S16_S1x16_1 (x3)))) (broadcastInDim S10000x16 ![] bcast_S_S10000x16 (constant S_ .f32 0x00000000#32))) (constant S_ .f32 0xFF800000#32) reducesTo_S10000x16_S10000_d1 h_S_))))) (broadcastInDim S10000x16 ![0, 1] bcast_S10000x1_S10000x16_0_1 (Host.log (broadcastInDim S10000x1 ![0] bcast_S10000_S10000x1_0 (Host.reduceAdd (Host.exp (subf (maximumf (addf (Host.dotGeneral dot_S10000x10000_S10000x16_S10000x16_1_0_0_1_n_n none (x1) (Host.dotGeneral dot_S10000x128_S128x16_S10000x16_1_0_0_1_n_n none (x0) (x2))) (broadcastInDim S10000x16 ![0, 1] bcast_S1x16_S10000x16_0_1 (broadcastInDim S1x16 ![1] bcast_S16_S1x16_1 (x3)))) (broadcastInDim S10000x16 ![] bcast_S_S10000x16 (constant S_ .f32 0x00000000#32))) (broadcastInDim S10000x16 ![0, 1] bcast_S10000x1_S10000x16_0_1 (broadcastInDim S10000x1 ![0] bcast_S10000_S10000x1_0 (maximumf (broadcastInDim S10000 ![] bcast_S_S10000 (constant S_ .f32 0xFF800000#32)) (Host.reduce FloatOps.maximumf (maximumf (addf (Host.dotGeneral dot_S10000x10000_S10000x16_S10000x16_1_0_0_1_n_n none (x1) (Host.dotGeneral dot_S10000x128_S128x16_S10000x16_1_0_0_1_n_n none (x0) (x2))) (broadcastInDim S10000x16 ![0, 1] bcast_S1x16_S10000x16_0_1 (broadcastInDim S1x16 ![1] bcast_S16_S1x16_1 (x3)))) (broadcastInDim S10000x16 ![] bcast_S_S10000x16 (constant S_ .f32 0x00000000#32))) (constant S_ .f32 0xFF800000#32) reducesTo_S10000x16_S10000_d1 h_S_)))))) (constant S_ .f32 0x00000000#32) reducesTo_S10000x16_S10000_d1 h_S_))))
      = refTerm (F := F) x0 x1 x2 x3 := rfl

end Stages

/-! ## The two products read at an index

  For each of the two products, the operand indices the product's dimension record assigns to an output index `(k, j)`
  and a contraction coordinate `l` are `(k, l)` on the left and `(l, j)` on the right: the first operand's axis 0 and the
  second operand's axis 1 are the output's axes, the other two are contracted. -/

section Products

theorem supportDims_lhs0 (i : S10000x16.Idx) (q : dot_S10000x128_S128x16_S10000x16_1_0_0_1_n_n.contr.Idx) :
    (dot_S10000x128_S128x16_S10000x16_1_0_0_1_n_n.lhsIdx i q 0).val = (i 0).val := by
  unfold DotDims.lhsIdx
  rw [dif_neg (show ¬(0 : Fin S10000x128.rank) ∈ dot_S10000x128_S128x16_S10000x16_1_0_0_1_n_n.lhsBatch by decide),
    dif_pos (show (0 : Fin S10000x128.rank) ∈ dot_S10000x128_S128x16_S10000x16_1_0_0_1_n_n.lhsNonContracting by decide)]
  rfl

theorem supportDims_lhs1 (i : S10000x16.Idx) (q : dot_S10000x128_S128x16_S10000x16_1_0_0_1_n_n.contr.Idx) :
    (dot_S10000x128_S128x16_S10000x16_1_0_0_1_n_n.lhsIdx i q 1).val = (q ⟨0, by decide⟩).val :=
  dot_S10000x128_S128x16_S10000x16_1_0_0_1_n_n.lhsIdx_val_of_single rfl i q

theorem supportDims_rhs0 (i : S10000x16.Idx) (q : dot_S10000x128_S128x16_S10000x16_1_0_0_1_n_n.contr.Idx) :
    (dot_S10000x128_S128x16_S10000x16_1_0_0_1_n_n.rhsIdx i q 0).val = (q ⟨0, by decide⟩).val :=
  dot_S10000x128_S128x16_S10000x16_1_0_0_1_n_n.rhsIdx_val_of_single rfl i q

theorem supportDims_rhs1 (i : S10000x16.Idx) (q : dot_S10000x128_S128x16_S10000x16_1_0_0_1_n_n.contr.Idx) :
    (dot_S10000x128_S128x16_S10000x16_1_0_0_1_n_n.rhsIdx i q 1).val = (i 1).val := by
  unfold DotDims.rhsIdx
  rw [dif_neg (show ¬(1 : Fin S128x16.rank) ∈ dot_S10000x128_S128x16_S10000x16_1_0_0_1_n_n.rhsBatch by decide),
    dif_pos (show (1 : Fin S128x16.rank) ∈ dot_S10000x128_S128x16_S10000x16_1_0_0_1_n_n.rhsNonContracting by decide)]
  rfl

/-- A [10000, 128] array times a [128, 16] array, at `(k, j)`: `∑ l, u[k, l] · v[l, j]`. -/
theorem supportDot_at (u : FVec Ideal S10000x128 .f32) (v : FVec Ideal S128x16 .f32)
    (k : Fin 10000) (j : Fin 16) :
    Host.dotGeneral (F := Ideal) dot_S10000x128_S128x16_S10000x16_1_0_0_1_n_n none u v (ix2 k j)
      = ∑ l : Fin 128, u (ix2 k l) * v (ix2 l j) := by
  simp only [Host.dotGeneral]
  rw [Ideal.dotGeneral_apply, ← Equiv.sum_comp (contrEquiv1 dot_S10000x128_S128x16_S10000x16_1_0_0_1_n_n 128 rfl rfl).symm]
  refine Finset.sum_congr rfl fun l _ => ?_
  have hl := contrEquiv1_symm_val dot_S10000x128_S128x16_S10000x16_1_0_0_1_n_n 128 rfl rfl l
  have el : dot_S10000x128_S128x16_S10000x16_1_0_0_1_n_n.lhsIdx (ix2 k j)
      ((contrEquiv1 dot_S10000x128_S128x16_S10000x16_1_0_0_1_n_n 128 rfl rfl).symm l) = ix2 k l := funext fun a => Fin.ext (by
    match a with
    | ⟨0, _⟩ => exact supportDims_lhs0 _ _
    | ⟨1, _⟩ => exact (supportDims_lhs1 _ _).trans hl)
  have er : dot_S10000x128_S128x16_S10000x16_1_0_0_1_n_n.rhsIdx (ix2 k j)
      ((contrEquiv1 dot_S10000x128_S128x16_S10000x16_1_0_0_1_n_n 128 rfl rfl).symm l) = ix2 l j := funext fun a => Fin.ext (by
    match a with
    | ⟨0, _⟩ => exact (supportDims_rhs0 _ _).trans hl
    | ⟨1, _⟩ => exact supportDims_rhs1 _ _)
  rw [el, er]

theorem aggregateDims_lhs0 (i : S10000x16.Idx) (q : dot_S10000x10000_S10000x16_S10000x16_1_0_0_1_n_n.contr.Idx) :
    (dot_S10000x10000_S10000x16_S10000x16_1_0_0_1_n_n.lhsIdx i q 0).val = (i 0).val := by
  unfold DotDims.lhsIdx
  rw [dif_neg (show ¬(0 : Fin S10000x10000.rank) ∈ dot_S10000x10000_S10000x16_S10000x16_1_0_0_1_n_n.lhsBatch by decide),
    dif_pos (show (0 : Fin S10000x10000.rank) ∈ dot_S10000x10000_S10000x16_S10000x16_1_0_0_1_n_n.lhsNonContracting by decide)]
  rfl

theorem aggregateDims_lhs1 (i : S10000x16.Idx) (q : dot_S10000x10000_S10000x16_S10000x16_1_0_0_1_n_n.contr.Idx) :
    (dot_S10000x10000_S10000x16_S10000x16_1_0_0_1_n_n.lhsIdx i q 1).val = (q ⟨0, by decide⟩).val :=
  dot_S10000x10000_S10000x16_S10000x16_1_0_0_1_n_n.lhsIdx_val_of_single rfl i q

theorem aggregateDims_rhs0 (i : S10000x16.Idx) (q : dot_S10000x10000_S10000x16_S10000x16_1_0_0_1_n_n.contr.Idx) :
    (dot_S10000x10000_S10000x16_S10000x16_1_0_0_1_n_n.rhsIdx i q 0).val = (q ⟨0, by decide⟩).val :=
  dot_S10000x10000_S10000x16_S10000x16_1_0_0_1_n_n.rhsIdx_val_of_single rfl i q

theorem aggregateDims_rhs1 (i : S10000x16.Idx) (q : dot_S10000x10000_S10000x16_S10000x16_1_0_0_1_n_n.contr.Idx) :
    (dot_S10000x10000_S10000x16_S10000x16_1_0_0_1_n_n.rhsIdx i q 1).val = (i 1).val := by
  unfold DotDims.rhsIdx
  rw [dif_neg (show ¬(1 : Fin S10000x16.rank) ∈ dot_S10000x10000_S10000x16_S10000x16_1_0_0_1_n_n.rhsBatch by decide),
    dif_pos (show (1 : Fin S10000x16.rank) ∈ dot_S10000x10000_S10000x16_S10000x16_1_0_0_1_n_n.rhsNonContracting by decide)]
  rfl

/-- A [10000, 10000] array times a [10000, 16] array, at `(r, j)`: `∑ k, u[r, k] · v[k, j]`. -/
theorem aggregateDot_at (u : FVec Ideal S10000x10000 .f32) (v : FVec Ideal S10000x16 .f32)
    (r : Fin 10000) (j : Fin 16) :
    Host.dotGeneral (F := Ideal) dot_S10000x10000_S10000x16_S10000x16_1_0_0_1_n_n none u v (ix2 r j)
      = ∑ k : Fin 10000, u (ix2 r k) * v (ix2 k j) := by
  simp only [Host.dotGeneral]
  rw [Ideal.dotGeneral_apply, ← Equiv.sum_comp (contrEquiv1 dot_S10000x10000_S10000x16_S10000x16_1_0_0_1_n_n 10000 rfl rfl).symm]
  refine Finset.sum_congr rfl fun k _ => ?_
  have hk := contrEquiv1_symm_val dot_S10000x10000_S10000x16_S10000x16_1_0_0_1_n_n 10000 rfl rfl k
  have el : dot_S10000x10000_S10000x16_S10000x16_1_0_0_1_n_n.lhsIdx (ix2 r j)
      ((contrEquiv1 dot_S10000x10000_S10000x16_S10000x16_1_0_0_1_n_n 10000 rfl rfl).symm k) = ix2 r k := funext fun a => Fin.ext (by
    match a with
    | ⟨0, _⟩ => exact aggregateDims_lhs0 _ _
    | ⟨1, _⟩ => exact (aggregateDims_lhs1 _ _).trans hk)
  have er : dot_S10000x10000_S10000x16_S10000x16_1_0_0_1_n_n.rhsIdx (ix2 r j)
      ((contrEquiv1 dot_S10000x10000_S10000x16_S10000x16_1_0_0_1_n_n 10000 rfl rfl).symm k) = ix2 k j := funext fun a => Fin.ext (by
    match a with
    | ⟨0, _⟩ => exact (aggregateDims_rhs0 _ _).trans hk
    | ⟨1, _⟩ => exact aggregateDims_rhs1 _ _)
  rw [el, er]

end Products

/-! ## The stages read at an index, over the extended reals -/

section Read

variable (x0 : (⟨S10000x128, .f32⟩ : BufTy).Contents (Elt Ideal)) (x1 : (⟨S10000x10000, .f32⟩ : BufTy).Contents (Elt Ideal))
  (x2 : (⟨S128x16, .f32⟩ : BufTy).Contents (Elt Ideal)) (x3 : (⟨S16, .f32⟩ : BufTy).Contents (Elt Ideal))

/-- The first product at `(k, j)` is `∑ l, x[k, l] · W[l, j]`. -/
theorem support_at (k : Fin 10000) (j : Fin 16) :
    support (F := Ideal) x0 x2 (ix2 k j) = Cert.Spec.support x0 x2 k j := by
  unfold support Cert.Spec.support
  exact supportDot_at x0 x2 k j

/-- The second product at `(r, j)` is `∑ k, adj[r, k] · support[k, j]`. -/
theorem aggregate_at (r : Fin 10000) (j : Fin 16) :
    aggregate (F := Ideal) x0 x1 x2 (ix2 r j) = ∑ k : Fin 10000, x1 (ix2 r k) * Cert.Spec.support x0 x2 k j := by
  unfold aggregate
  rw [aggregateDot_at]
  exact Finset.sum_congr rfl fun k _ => congrArg (x1 (ix2 r k) * ·) (support_at x0 x2 k j)

/-- The bias spread over the rows, at `(r, j)`, is `b[j]`. -/
theorem biasRows_at (r : Fin 10000) (j : Fin 16) :
    biasRows (F := Ideal) x3 (ix2 r j) = x3 (ix1 j) := by
  unfold biasRows
  refine (broadcastInDim_apply _ bcast_S1x16_S10000x16_0_1 _ (ix2 r j) (ix2 (0 : Fin 1) j) (fun a => match a with
    | ⟨0, _⟩ => by show 0 = if (1 : Nat) = 1 then 0 else r.val; rw [if_pos rfl]
    | ⟨1, _⟩ => by show j.val = if (16 : Nat) = 1 then 0 else j.val; rw [if_neg (by decide)])).trans ?_
  exact broadcastInDim_apply _ bcast_S16_S1x16_1 x3 (ix2 (0 : Fin 1) j) (ix1 j) (fun a => match a with
    | ⟨0, _⟩ => by show j.val = if (16 : Nat) = 1 then 0 else j.val; rw [if_neg (by decide)])

/-- The array the activations are compared with holds the zero word's value everywhere. -/
theorem zeros_at (i : S10000x16.Idx) : zeros (F := Ideal) i = Cert.Spec.zero := by
  unfold zeros
  exact broadcastInDim_apply _ bcast_S_S10000x16 (constant (F := Ideal) S_ .f32 0x00000000#32) i ix0 (fun a => a.elim0)

/-- The activations at `(r, j)`: `max (∑ k, adj[r, k] · support[k, j] + b[j]) 0`. -/
theorem activations_at (r : Fin 10000) (j : Fin 16) :
    activations (F := Ideal) x0 x1 x2 x3 (ix2 r j)
      = Cert.Spec.act (Cert.Spec.support x0 x2) x3 (fun k => x1 (ix2 r k)) j := by
  unfold activations
  rw [maximumf_apply, addf_apply, aggregate_at, biasRows_at, zeros_at]
  rfl

/-- The row maximum at `r`: one more `max` with minus infinity in front of the fold changes nothing, because a fold
    of `max` is at least the value it starts from. -/
theorem rowMaxima_at (r : Fin 10000) :
    rowMaxima (F := Ideal) x0 x1 x2 x3 (ix1 r)
      = Cert.Spec.rowMax (Cert.Spec.act (Cert.Spec.support x0 x2) x3 fun k => x1 (ix2 r k)) := by
  unfold rowMaxima
  rw [maximumf_apply,
    broadcastInDim_apply _ bcast_S_S10000 (constant (F := Ideal) S_ .f32 0xFF800000#32) (ix1 r) ix0 (fun a => a.elim0),
    Cert.Lib.MaxLayout.hostMax_axis1_apply (activations (F := Ideal) x0 x1 x2 x3)
      (constant (F := Ideal) S_ .f32 0xFF800000#32) reducesTo_S10000x16_S10000_d1 (by decide) h_S_ r,
    constant_apply, constant_apply]
  have hact : (fun k : Fin 16 => activations (F := Ideal) x0 x1 x2 x3 (ix2 r k))
      = Cert.Spec.act (Cert.Spec.support x0 x2) x3 fun k => x1 (ix2 r k) :=
    funext fun k => activations_at x0 x1 x2 x3 r k
  rw [hact]
  unfold Cert.Spec.rowMax
  exact max_eq_right ((Finset.le_fold_max _).mpr (Or.inl le_rfl))

/-- The row maxima spread back over the rows: at `(r, q)`, row `r`'s maximum. -/
theorem maxColumns_at (r : Fin 10000) (q : Fin 16) :
    maxColumns (F := Ideal) x0 x1 x2 x3 (ix2 r q) = rowMaxima (F := Ideal) x0 x1 x2 x3 (ix1 r) := by
  unfold maxColumns
  generalize rowMaxima (F := Ideal) x0 x1 x2 x3 = y
  refine (broadcastInDim_apply _ bcast_S10000x1_S10000x16_0_1 _ (ix2 r q) (ix2 r (0 : Fin 1)) (fun a => match a with
    | ⟨0, _⟩ => by show r.val = if (10000 : Nat) = 1 then 0 else r.val; rw [if_neg (by decide)]
    | ⟨1, _⟩ => by show 0 = if (1 : Nat) = 1 then 0 else q.val; rw [if_pos rfl])).trans ?_
  exact broadcastInDim_apply _ bcast_S10000_S10000x1_0 y (ix2 r (0 : Fin 1)) (ix1 r) (fun a => match a with
    | ⟨0, _⟩ => by show r.val = if (10000 : Nat) = 1 then 0 else r.val; rw [if_neg (by decide)])

/-- The shifted activations at `(r, q)`: the activation less its row's maximum. -/
theorem shifted_at (r : Fin 10000) (q : Fin 16) :
    shifted (F := Ideal) x0 x1 x2 x3 (ix2 r q)
      = Cert.Spec.act (Cert.Spec.support x0 x2) x3 (fun k => x1 (ix2 r k)) q
        - Cert.Spec.rowMax (Cert.Spec.act (Cert.Spec.support x0 x2) x3 fun k => x1 (ix2 r k)) := by
  unfold shifted
  rw [subf_apply, activations_at, maxColumns_at, rowMaxima_at]

/-- The row sums at `r`: the zero added in front of the sum of the sixteen exponentials changes nothing. -/
theorem expSums_at (r : Fin 10000) :
    expSums (F := Ideal) x0 x1 x2 x3 (ix1 r)
      = ∑ q : Fin 16, Ideal.exp (Cert.Spec.act (Cert.Spec.support x0 x2) x3 (fun k => x1 (ix2 r k)) q
          - Cert.Spec.rowMax (Cert.Spec.act (Cert.Spec.support x0 x2) x3 fun k => x1 (ix2 r k))) := by
  unfold expSums
  have hexp : ∀ q : Fin 16, Host.exp (F := Ideal) (s := S10000x16) (φ := .f32) (shifted (F := Ideal) x0 x1 x2 x3) (ix2 r q)
      = Ideal.exp (Cert.Spec.act (Cert.Spec.support x0 x2) x3 (fun k => x1 (ix2 r k)) q
          - Cert.Spec.rowMax (Cert.Spec.act (Cert.Spec.support x0 x2) x3 fun k => x1 (ix2 r k))) := fun q => by
    show Ideal.exp (shifted (F := Ideal) x0 x1 x2 x3 (ix2 r q)) = _
    rw [shifted_at]
  generalize Host.exp (F := Ideal) (s := S10000x16) (φ := .f32) (shifted (F := Ideal) x0 x1 x2 x3) = y at hexp ⊢
  simp only [Host.reduceAdd, Ideal.hostReduceAdd_def]
  rw [Ideal.hostReduceAdd_single reducesTo_S10000x16_S10000_d1 (by decide), constant_apply, Ideal.ofBits_zero_f32, zero_add]
  refine Finset.sum_congr rfl fun q _ => ?_
  refine Eq.trans (congrArg y (funext fun a => Fin.ext (by match a with | ⟨0, _⟩ => rfl | ⟨1, _⟩ => rfl))) (hexp q)

/-- The logarithms spread back over the rows: at `(r, j)`, the logarithm of row `r`'s sum. -/
theorem logColumns_at (r : Fin 10000) (j : Fin 16) :
    logColumns (F := Ideal) x0 x1 x2 x3 (ix2 r j) = Ideal.log (expSums (F := Ideal) x0 x1 x2 x3 (ix1 r)) := by
  unfold logColumns
  generalize expSums (F := Ideal) x0 x1 x2 x3 = y
  refine (broadcastInDim_apply _ bcast_S10000x1_S10000x16_0_1 _ (ix2 r j) (ix2 r (0 : Fin 1)) (fun a => match a with
    | ⟨0, _⟩ => by show r.val = if (10000 : Nat) = 1 then 0 else r.val; rw [if_neg (by decide)]
    | ⟨1, _⟩ => by show 0 = if (1 : Nat) = 1 then 0 else j.val; rw [if_pos rfl])).trans ?_
  show Ideal.log (broadcastInDim S10000x1 ![0] bcast_S10000_S10000x1_0 y (ix2 r (0 : Fin 1))) = _
  exact congrArg Ideal.log (broadcastInDim_apply _ bcast_S10000_S10000x1_0 y (ix2 r (0 : Fin 1)) (ix1 r) (fun a => match a with
    | ⟨0, _⟩ => by show r.val = if (10000 : Nat) = 1 then 0 else r.val; rw [if_neg (by decide)]))

/-- Entry `(r, j)` of the reference's result is the specification's. -/
theorem entry_at (r : Fin 10000) (j : Fin 16) :
    refTerm (F := Ideal) x0 x1 x2 x3 (ix2 r j) = Cert.Spec.entry x0 x1 x2 x3 r j := by
  unfold refTerm
  rw [subf_apply, shifted_at, logColumns_at, expSums_at]
  rfl

end Read

/-- The reference's result is the specification's array. -/
theorem ref_is_spec (x0 : (⟨S10000x128, .f32⟩ : BufTy).Contents (Elt Ideal)) (x1 : (⟨S10000x10000, .f32⟩ : BufTy).Contents (Elt Ideal))
    (x2 : (⟨S128x16, .f32⟩ : BufTy).Contents (Elt Ideal)) (x3 : (⟨S16, .f32⟩ : BufTy).Contents (Elt Ideal)) :
    refTerm (F := Ideal) x0 x1 x2 x3 = Cert.Spec.result x0 x1 x2 x3 := by
  funext i
  obtain ⟨r, j, rfl⟩ : ∃ (r : Fin 10000) (j : Fin 16), i = ix2 r j := ⟨i 0, i 1, eq_ix2 i⟩
  rw [Cert.Spec.result_ix2]
  exact entry_at x0 x1 x2 x3 r j

end Cert.ReferenceIdeal.RefValue

end
-- ==== Proof.lean ====
/-
  A graph-convolution layer with a row-wise log-softmax, `log_softmax (relu (adj · (x · W) + b))`, computed by one
  Pallas kernel over 25 row blocks of the adjacency, against its plain reference; both read over the extended reals.

  The kernel keeps the product `x · W` in a scratch buffer from the first grid point on, and at every point computes
  400 rows of the result from the adjacency's 400 rows, that product and the bias, storing them over its own slab of
  the output's buffer; the buffer is written back once, after the last point.  Row `r` of the result depends on row `r`
  of the adjacency only, so the 25 slabs together are the whole array of `Cert.Spec.result` (Proof/Spec.lean); the
  reference computes the same function in one piece.  The only differences between the two sides are the order of the
  sums inside the matrix products and the reference's extra `max` of the row maximum with minus infinity, neither of
  which changes a value over the extended reals; no finiteness of the inputs is used.

  Modules: Spec (the function), Payload (the kernel body's two pure terms at an index), BlockReads (each window's block
  as entries of its array), BodyKit / BodyFirst / BodyLater (the body's runs), FrameData (the proof data, the body
  obligation, the run, the frame), OutputArray and OutputValue (the written-back array is the function), RefRun and
  RefStages (the reference's run and its term as the function); KBody* / KFrameData are the frame of the word-level
  program.
-/
import proofs.«181991_g8967891714351_rerun558fix_450_27_alg».proof.Defs
import proofs.«181991_g8967891714351_rerun558fix_450_27_alg».proof.Proof.Gen.Kernel
import proofs.«181991_g8967891714351_rerun558fix_450_27_alg».proof.Proof.Gen.KernelIdeal
import proofs.«181991_g8967891714351_rerun558fix_450_27_alg».proof.Proof.Gen.ReferenceIdeal
import proofs.«181991_g8967891714351_rerun558fix_450_27_alg».proof.Proof.Gen.Pre_finite_inputs
import proofs.«181991_g8967891714351_rerun558fix_450_27_alg».proof.Proof.KFrameData
import proofs.«181991_g8967891714351_rerun558fix_450_27_alg».proof.Proof.FrameData
import proofs.«181991_g8967891714351_rerun558fix_450_27_alg».proof.Proof.OutputValue
import proofs.«181991_g8967891714351_rerun558fix_450_27_alg».proof.Proof.RefRun
import proofs.«181991_g8967891714351_rerun558fix_450_27_alg».proof.Proof.RefStages
import Idealize.ShloMosaic.Adequacy
import Idealize.ShloMosaic.Init

noncomputable section

namespace Cert.Proof

open Idealize.ShloMosaic Idealize.ShloMosaic.TcCoe Idealize.SL.Sem

/-- The idealized kernel's run: the result array ends at the specification's function of the argument arrays, which end
    unchanged. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v0)
          = Cert.Spec.result (m ((c.tc : Thread Cert.KernelIdeal.nD Cert.KernelIdeal.τ).loc Cert.KernelIdeal.main_arg0))
              (m ((c.tc : Thread Cert.KernelIdeal.nD Cert.KernelIdeal.τ).loc Cert.KernelIdeal.main_arg1))
              (m ((c.tc : Thread Cert.KernelIdeal.nD Cert.KernelIdeal.τ).loc Cert.KernelIdeal.main_arg2))
              (m ((c.tc : Thread Cert.KernelIdeal.nD Cert.KernelIdeal.τ).loc Cert.KernelIdeal.main_arg3))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)) :=
  (θ_run Cert.KernelIdeal.defs _ _).mono (fun _ h c =>
      ⟨Cert.KernelIdeal.OutValue.out_is_spec m c _ ((h c).1 4),
       (Eq.mp (congrFun ((Cert.KernelIdeal.Hand.rd m c).ArrAt_in 0 rfl _) _) ((h c).1 0)).trans ((Cert.KernelIdeal.Hand.A_eq m c 0).trans (Cert.KernelIdeal.Gen.V_main_arg0 m c)),
       (Eq.mp (congrFun ((Cert.KernelIdeal.Hand.rd m c).ArrAt_in 3 rfl _) _) ((h c).1 3)).trans ((Cert.KernelIdeal.Hand.A_eq m c 3).trans (Cert.KernelIdeal.Gen.V_main_arg1 m c)),
       (Eq.mp (congrFun ((Cert.KernelIdeal.Hand.rd m c).ArrAt_in 1 rfl _) _) ((h c).1 1)).trans ((Cert.KernelIdeal.Hand.A_eq m c 1).trans (Cert.KernelIdeal.Gen.V_main_arg2 m c)),
       (Eq.mp (congrFun ((Cert.KernelIdeal.Hand.rd m c).ArrAt_in 2 rfl _) _) ((h c).1 2)).trans ((Cert.KernelIdeal.Hand.A_eq m c 2).trans (Cert.KernelIdeal.Gen.V_main_arg3 m c))⟩)
    (Cert.KernelIdeal.Hand.run_main (F := Ideal) m ρ)

namespace Claims

theorem frame_k : Cert.frame_Kernel := fun m ρ _ => Cert.Kernel.Hand.frame (F := Bits) m ρ
theorem frame_ki : Cert.frame_KernelIdeal := fun m ρ _ => Cert.KernelIdeal.Hand.frame (F := Ideal) m ρ
theorem frame_ri : Cert.frame_ReferenceIdeal := fun m ρ _ =>
  (θ_run Cert.ReferenceIdeal.defs _ _).mono (fun _ h c => (h c).2) (Cert.ReferenceIdeal.RefRun.run (F := Ideal) m ρ)

/-- The ideal pass rewrote nothing: nothing to preserve. -/
theorem preserves : Cert.preserves_Kernel_KernelIdeal := trivial

/-- Both idealized programs end at the specification's function of arguments that agree. -/
theorem algebraic : Cert.algebraic_KernelIdeal_ReferenceIdeal := by
  intro m ρ m' ρ' _ hagree
  refine ⟨_, kernel_run m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2.1, (hagree c).2.2.2]
  exact (Cert.ReferenceIdeal.RefValue.refTerm_eq _ _ _ _).trans (Cert.ReferenceIdeal.RefValue.ref_is_spec _ _ _ _)

end Claims

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, Claims.preserves, Claims.algebraic⟩

end Cert.Proof

end
